-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512x8 : Shape := ⟨4, ![16, 512, 512, 8]⟩
abbrev S3x3 : Shape := ⟨2, ![3, 3]⟩
abbrev S_ : Shape := ⟨0, ![]⟩

class Facts : Prop where
  bcast_S_S16x512x512x8 : S_.BroadcastsInDim S16x512x512x8 (![] : Fin 0 → Fin S16x512x512x8.rank)
  reducesTo_S16x512x512x8_S_d0_1_2_3 : S16x512x512x8.ReducesTo [0, 1, 2, 3] S_
  h_S_ : 0 < S_.numel

variable [Facts]

def fn {F : FTy → Type} [FloatOps F] (main_arg0 : FVec F S16x512x512x8 .f32) (main_arg1 : IVec S3x3 1) : IVec S_ 1 :=
  let main_v0 : FVec F S16x512x512x8 .f32 := Host.absf main_arg0
  let main_cst : FVec F S_ .f32 := constant S_ .f32 0x7F800000#32
  let main_v1 : FVec F S16x512x512x8 .f32 := broadcastInDim S16x512x512x8 ![] bcast_S_S16x512x512x8 main_cst
  let main_v2 : IVec S16x512x512x8 1 := cmpf .olt main_v0 main_v1
  let main_c : IVec S_ 1 := constantI S_ 1 1#1
  let main_v3 : IVec S_ 1 := (fun x v => Host.reduce IntOp.andi x v reducesTo_S16x512x512x8_S_d0_1_2_3 h_S_) main_v2 main_c
  main_v3
-- ==== Kernel.lean ====
abbrev S16x512x512x8 : Shape := ⟨4, ![16, 512, 512, 8]⟩
abbrev S3x3 : Shape := ⟨2, ![3, 3]⟩
abbrev S9 : Shape := ⟨1, ![9]⟩
abbrev S1x128x512x8 : Shape := ⟨4, ![1, 128, 512, 8]⟩
abbrev S1x1x512x8 : Shape := ⟨4, ![1, 1, 512, 8]⟩
abbrev S128x512x8 : Shape := ⟨3, ![128, 512, 8]⟩
abbrev S512x8 : Shape := ⟨2, ![512, 8]⟩
abbrev S1x512x8 : Shape := ⟨3, ![1, 512, 8]⟩
abbrev S127x512x8 : Shape := ⟨3, ![127, 512, 8]⟩
abbrev S128x1x8 : Shape := ⟨3, ![128, 1, 8]⟩
abbrev S128x513x8 : Shape := ⟨3, ![128, 513, 8]⟩
abbrev S128x514x8 : Shape := ⟨3, ![128, 514, 8]⟩
abbrev S1 : Shape := ⟨1, ![1]⟩

abbrev nBuf : Space → Nat
  | .hbm => 4
  | .vmem => 8
  | .smem => 1
  | _ => 0

abbrev bufTy : (tb : Table) → Fin (tcTables nBuf tb) → BufTy
  | .hbm, ⟨0, _⟩ => ⟨S16x512x512x8, .f32⟩
  | .hbm, ⟨1, _⟩ => ⟨S3x3, .i1⟩
  | .hbm, ⟨2, _⟩ => ⟨S9, .i1⟩
  | .hbm, ⟨3, _⟩ => ⟨S16x512x512x8, .f32⟩
  | .local _ .vmem, ⟨0, _⟩ => ⟨S1x128x512x8, .f32⟩
  | .local _ .vmem, ⟨1, _⟩ => ⟨S1x128x512x8, .f32⟩
  | .local _ .vmem, ⟨2, _⟩ => ⟨S1x1x512x8, .f32⟩
  | .local _ .vmem, ⟨3, _⟩ => ⟨S1x1x512x8, .f32⟩
  | .local _ .vmem, ⟨4, _⟩ => ⟨S1x1x512x8, .f32⟩
  | .local _ .vmem, ⟨5, _⟩ => ⟨S1x1x512x8, .f32⟩
  | .local _ .vmem, ⟨6, _⟩ => ⟨S1x128x512x8, .f32⟩
  | .local _ .vmem, ⟨7, _⟩ => ⟨S1x128x512x8, .f32⟩
  | .local _ .smem, ⟨0, _⟩ => ⟨S9, .i32⟩
  | _, _ => ⟨S16x512x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v2 : Ref sig .tc := ⟨.hbm, 3, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let c511_i32 : BitVec 32 := 511#32
  let v2 : BitVec 32 := Scalar.maxsi c0_i32 v1
  let v3 : BitVec 32 := Scalar.minsi c511_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c0_i32 : BitVec 32 := 0#32
  let c511_i32 : BitVec 32 := 511#32
  let v2 : BitVec 32 := Scalar.maxsi c0_i32 v1
  let v3 : BitVec 32 := Scalar.minsi c511_i32 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S3x3_S9 : S3x3.ShapeCasts S9
  natLt_1_32 : 1 < 32
  inb_S1x128x512x8_S1x128x512x8_0_0_0_0 : ∀ a, (![0, 0, 0, 0] : Fin 4 → Nat) a + S1x128x512x8.size a ≤ S1x128x512x8.size a
  h_S1x128x512x8 : 0 < S1x128x512x8.numel
  shapeCasts_S1x128x512x8_S128x512x8 : S1x128x512x8.ShapeCasts S128x512x8
  inb_S1x1x512x8_S1x1x512x8_0_0_0_0 : ∀ a, (![0, 0, 0, 0] : Fin 4 → Nat) a + S1x1x512x8.size a ≤ S1x1x512x8.size a
  h_S1x1x512x8 : 0 < S1x1x512x8.numel
  shapeCasts_S1x1x512x8_S512x8 : S1x1x512x8.ShapeCasts S512x8
  shapeCasts_S512x8_S1x512x8 : S512x8.ShapeCasts S1x512x8
  slices_S128x512x8_o0_0_0_S127x512x8 : S128x512x8.Slices ![0, 0, 0] S127x512x8
  concatenates_S1x512x8_S127x512x8_S128x512x8_d0 : Shape.Concatenates [S1x512x8, S127x512x8] S128x512x8 0
  slices_S128x512x8_o1_0_0_S127x512x8 : S128x512x8.Slices ![1, 0, 0] S127x512x8
  concatenates_S127x512x8_S1x512x8_S128x512x8_d0 : Shape.Concatenates [S127x512x8, S1x512x8] S128x512x8 0
  concatenates_S128x1x8_S128x512x8_S128x513x8_d1 : Shape.Concatenates [S128x1x8, S128x512x8] S128x513x8 1
  concatenates_S128x513x8_S128x1x8_S128x514x8_d1 : Shape.Concatenates [S128x513x8, S128x1x8] S128x514x8 1
  slices_S128x514x8_o0_0_0_S128x512x8 : S128x514x8.Slices ![0, 0, 0] S128x512x8
  inb_S9_S1_0 : ∀ a, (![0] : Fin 1 → Nat) a + S1.size a ≤ S9.size a
  numel1_S1 : S1.numel = 1
  slices_S128x514x8_o0_1_0_S128x512x8 : S128x514x8.Slices ![0, 1, 0] S128x512x8
  inb_S9_S1_1 : ∀ a, (![1] : Fin 1 → Nat) a + S1.size a ≤ S9.size a
  slices_S128x514x8_o0_2_0_S128x512x8 : S128x514x8.Slices ![0, 2, 0] S128x512x8
  inb_S9_S1_2 : ∀ a, (![2] : Fin 1 → Nat) a + S1.size a ≤ S9.size a
  inb_S9_S1_3 : ∀ a, (![3] : Fin 1 → Nat) a + S1.size a ≤ S9.size a
  inb_S9_S1_4 : ∀ a, (![4] : Fin 1 → Nat) a + S1.size a ≤ S9.size a
  inb_S9_S1_5 : ∀ a, (![5] : Fin 1 → Nat) a + S1.size a ≤ S9.size a
  inb_S9_S1_6 : ∀ a, (![6] : Fin 1 → Nat) a + S1.size a ≤ S9.size a
  inb_S9_S1_7 : ∀ a, (![7] : Fin 1 → Nat) a + S1.size a ≤ S9.size a
  inb_S9_S1_8 : ∀ a, (![8] : Fin 1 → Nat) a + S1.size a ≤ S9.size a
  shapeCasts_S128x512x8_S1x128x512x8 : S128x512x8.ShapeCasts S1x128x512x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512x8.size a ≤ S16x512x512x8.size a
  hwx0_0 : ∀ i : grid0.Coords, EltTy.bits .f32 = 32 ∨ (Rect.block (s := S16x512x512x8) S1x128x512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x8.size a ≤ S16x512x512x8.size a
  hwx0_1 : ∀ i : grid0.Coords, EltTy.bits .f32 = 32 ∨ (Rect.block (s := S16x512x512x8) S1x1x512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x8.size a ≤ S16x512x512x8.size a
  hwx0_2 : ∀ i : grid0.Coords, EltTy.bits .f32 = 32 ∨ (Rect.block (s := S16x512x512x8) S1x1x512x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512x8.size a ≤ S16x512x512x8.size a
  hwx0_3 : ∀ i : grid0.Coords, EltTy.bits .f32 = 32 ∨ (Rect.block (s := S16x512x512x8) S1x128x512x8.size (cc0_transform_3 i) (hinb0_3 i)).WholeWords (EltTy.packing .f32)

variable [Facts₀]

abbrev spec0_0 : Pipeline.WinSpec sig grid0.rank :=
  Pipeline.WinSpec.ofSpec (Memref.whole main_arg0) S1x128x512x8.size reads0_0 false false 2 stage0_0 sem0_0 nbuf0_0 hstage0_0

abbrev spec0_1 : Pipeline.WinSpec sig grid0.rank :=
  Pipeline.WinSpec.ofSpec (Memref.whole main_arg0) S1x1x512x8.size reads0_1 false false 2 stage0_1 sem0_1 nbuf0_1 hstage0_1

abbrev spec0_2 : Pipeline.WinSpec sig grid0.rank :=
  Pipeline.WinSpec.ofSpec (Memref.whole main_arg0) S1x1x512x8.size reads0_2 false false 2 stage0_2 sem0_2 nbuf0_2 hstage0_2

abbrev spec0_3 : Pipeline.WinSpec sig grid0.rank :=
  Pipeline.WinSpec.ofSpec (Memref.whole main_v2) S1x128x512x8.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x512x512x8 : Shape := ⟨4, ![16, 512, 512, 8]⟩
abbrev S3x3 : Shape := ⟨2, ![3, 3]⟩
abbrev S_ : Shape := ⟨0, ![]⟩
abbrev S16x514x514x8 : Shape := ⟨4, ![16, 514, 514, 8]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S16x512x512x8, .f32⟩
  | .hbm, ⟨1, _⟩ => ⟨S3x3, .i1⟩
  | .hbm, ⟨2, _⟩ => ⟨S_, .f32⟩
  | .hbm, ⟨3, _⟩ => ⟨S_, .f32⟩
  | .hbm, ⟨4, _⟩ => ⟨S16x514x514x8, .f32⟩
  | .hbm, ⟨5, _⟩ => ⟨S_, .f32⟩
  | .hbm, ⟨6, _⟩ => ⟨S16x512x512x8, .f32⟩
  | .hbm, ⟨7, _⟩ => ⟨S16x512x512x8, .f32⟩
  | .hbm, ⟨8, _⟩ => ⟨S1x1, .i1⟩
  | .hbm, ⟨9, _⟩ => ⟨S_, .i1⟩
  | .hbm, ⟨10, _⟩ => ⟨S_, .f32⟩
  | .hbm, ⟨11, _⟩ => ⟨S16x512x512x8, .f32⟩
  | .hbm, ⟨12, _⟩ => ⟨S16x512x512x8, .f32⟩
  | .hbm, ⟨13, _⟩ => ⟨S16x512x512x8, .f32⟩
  | .hbm, ⟨14, _⟩ => ⟨S16x512x512x8, .f32⟩
  | .hbm, ⟨15, _⟩ => ⟨S1x1, .i1⟩
  | .hbm, ⟨16, _⟩ => ⟨S_, .i1⟩
  | .hbm, ⟨17, _⟩ => ⟨S_, .f32⟩
  | .hbm, ⟨18, _⟩ => ⟨S16x512x512x8, .f32⟩
  | .hbm, ⟨19, _⟩ => ⟨S16x512x512x8, .f32⟩
  | .hbm, ⟨20, _⟩ => ⟨S16x512x512x8, .f32⟩
  | .hbm, ⟨21, _⟩ => ⟨S16x512x512x8, .f32⟩
  | .hbm, ⟨22, _⟩ => ⟨S1x1, .i1⟩
  | .hbm, ⟨23, _⟩ => ⟨S_, .i1⟩
  | .hbm, ⟨24, _⟩ => ⟨S_, .f32⟩
  | .hbm, ⟨25, _⟩ => ⟨S16x512x512x8, .f32⟩
  | .hbm, ⟨26, _⟩ => ⟨S16x512x512x8, .f32⟩
  | .hbm, ⟨27, _⟩ => ⟨S16x512x512x8, .f32⟩
  | .hbm, ⟨28, _⟩ => ⟨S16x512x512x8, .f32⟩
  | .hbm, ⟨29, _⟩ => ⟨S1x1, .i1⟩
  | .hbm, ⟨30, _⟩ => ⟨S_, .i1⟩
  | .hbm, ⟨31, _⟩ => ⟨S_, .f32⟩
  | .hbm, ⟨32, _⟩ => ⟨S16x512x512x8, .f32⟩
  | .hbm, ⟨33, _⟩ => ⟨S16x512x512x8, .f32⟩
  | .hbm, ⟨34, _⟩ => ⟨S16x512x512x8, .f32⟩
  | .hbm, ⟨35, _⟩ => ⟨S16x512x512x8, .f32⟩
  | .hbm, ⟨36, _⟩ => ⟨S1x1, .i1⟩
  | .hbm, ⟨37, _⟩ => ⟨S_, .i1⟩
  | .hbm, ⟨38, _⟩ => ⟨S_, .f32⟩
  | .hbm, ⟨39, _⟩ => ⟨S16x512x512x8, .f32⟩
  | .hbm, ⟨40, _⟩ => ⟨S16x512x512x8, .f32⟩
  | .hbm, ⟨41, _⟩ => ⟨S16x512x512x8, .f32⟩
  | .hbm, ⟨42, _⟩ => ⟨S16x512x512x8, .f32⟩
  | .hbm, ⟨43, _⟩ => ⟨S1x1, .i1⟩
  | .hbm, ⟨44, _⟩ => ⟨S_, .i1⟩
  | .hbm, ⟨45, _⟩ => ⟨S_, .f32⟩
  | .hbm, ⟨46, _⟩ => ⟨S16x512x512x8, .f32⟩
  | .hbm, ⟨47, _⟩ => ⟨S16x512x512x8, .f32⟩
  | .hbm, ⟨48, _⟩ => ⟨S16x512x512x8, .f32⟩
  | .hbm, ⟨49, _⟩ => ⟨S16x512x512x8, .f32⟩
  | .hbm, ⟨50, _⟩ => ⟨S1x1, .i1⟩
  | .hbm, ⟨51, _⟩ => ⟨S_, .i1⟩
  | .hbm, ⟨52, _⟩ => ⟨S_, .f32⟩
  | .hbm, ⟨53, _⟩ => ⟨S16x512x512x8, .f32⟩
  | .hbm, ⟨54, _⟩ => ⟨S16x512x512x8, .f32⟩
  | .hbm, ⟨55, _⟩ => ⟨S16x512x512x8, .f32⟩
  | .hbm, ⟨56, _⟩ => ⟨S16x512x512x8, .f32⟩
  | .hbm, ⟨57, _⟩ => ⟨S1x1, .i1⟩
  | .hbm, ⟨58, _⟩ => ⟨S_, .i1⟩
  | .hbm, ⟨59, _⟩ => ⟨S_, .f32⟩
  | .hbm, ⟨60, _⟩ => ⟨S16x512x512x8, .f32⟩
  | .hbm, ⟨61, _⟩ => ⟨S16x512x512x8, .f32⟩
  | .hbm, ⟨62, _⟩ => ⟨S16x512x512x8, .f32⟩
  | .hbm, ⟨63, _⟩ => ⟨S16x512x512x8, .f32⟩
  | .hbm, ⟨64, _⟩ => ⟨S1x1, .i1⟩
  | .hbm, ⟨65, _⟩ => ⟨S_, .i1⟩
  | .hbm, ⟨66, _⟩ => ⟨S_, .f32⟩
  | .hbm, ⟨67, _⟩ => ⟨S16x512x512x8, .f32⟩
  | .hbm, ⟨68, _⟩ => ⟨S16x512x512x8, .f32⟩
  | .hbm, ⟨69, _⟩ => ⟨S16x512x512x8, .f32⟩
  | .hbm, ⟨70, _⟩ => ⟨S16x512x512x8, .i1⟩
  | .hbm, ⟨71, _⟩ => ⟨S16x512x512x8, .f32⟩
  | .hbm, ⟨72, _⟩ => ⟨S16x512x512x8, .f32⟩
  | _, _ => ⟨S16x512x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_call3_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call4_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_call5_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_call6_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_call7_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_call8_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_call9_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  pads_S16x512x512x8_S16x514x514x8_000_110_110_000 : S16x512x512x8.Pads (![0, 1, 1, 0] : Fin 4 → Nat) ![0, 1, 1, 0] ![0, 0, 0, 0] S16x514x514x8
  h_S_ : 0 < S_.numel
  bcast_S_S16x512x512x8 : S_.BroadcastsInDim S16x512x512x8 (![] : Fin 0 → Fin S16x512x512x8.rank)
  slices_S16x514x514x8_S16x512x512x8_0_0_0_0 : S16x514x514x8.Slices ![0, 0, 0, 0] S16x512x512x8
  slices_S3x3_S1x1_0_0 : S3x3.Slices ![0, 0] S1x1
  shapeCasts_S1x1_S_ : S1x1.ShapeCasts S_
  slices_S16x514x514x8_S16x512x512x8_0_0_1_0 : S16x514x514x8.Slices ![0, 0, 1, 0] S16x512x512x8
  slices_S3x3_S1x1_0_1 : S3x3.Slices ![0, 1] S1x1
  slices_S16x514x514x8_S16x512x512x8_0_0_2_0 : S16x514x514x8.Slices ![0, 0, 2, 0] S16x512x512x8
  slices_S3x3_S1x1_0_2 : S3x3.Slices ![0, 2] S1x1
  slices_S16x514x514x8_S16x512x512x8_0_1_0_0 : S16x514x514x8.Slices ![0, 1, 0, 0] S16x512x512x8
  slices_S3x3_S1x1_1_0 : S3x3.Slices ![1, 0] S1x1
  slices_S16x514x514x8_S16x512x512x8_0_1_1_0 : S16x514x514x8.Slices ![0, 1, 1, 0] S16x512x512x8
  slices_S3x3_S1x1_1_1 : S3x3.Slices ![1, 1] S1x1
  slices_S16x514x514x8_S16x512x512x8_0_1_2_0 : S16x514x514x8.Slices ![0, 1, 2, 0] S16x512x512x8
  slices_S3x3_S1x1_1_2 : S3x3.Slices ![1, 2] S1x1
  slices_S16x514x514x8_S16x512x512x8_0_2_0_0 : S16x514x514x8.Slices ![0, 2, 0, 0] S16x512x512x8
  slices_S3x3_S1x1_2_0 : S3x3.Slices ![2, 0] S1x1
  slices_S16x514x514x8_S16x512x512x8_0_2_1_0 : S16x514x514x8.Slices ![0, 2, 1, 0] S16x512x512x8
  slices_S3x3_S1x1_2_1 : S3x3.Slices ![2, 1] S1x1
  slices_S16x514x514x8_S16x512x512x8_0_2_2_0 : S16x514x514x8.Slices ![0, 2, 2, 0] S16x512x512x8
  slices_S3x3_S1x1_2_2 : S3x3.Slices ![2, 2] S1x1

variable [Facts₀]

class Facts : Prop extends Facts₀ where

variable [Facts]
-- ==== Proof.BitsEntry.lean ====
/-
  (The same development for the program as printed, read at the word-level instance.)

  The kernel's launch, part one: what the region finds and what it is called with.

  @main reshapes the 3×3 structuring element to nine bits and widens them to nine words (the table the kernel reads in
  scalar memory), then runs one region over a 16 × 4 grid: point (b, i) works on rows 128·i … 128·i + 127 of plane b. Three
  windows read the SAME image — the point's 128 rows, the single row above them and the single row below them (row numbers
  clamped into the image) — and one window writes the point's 128 rows of the result.
-/
import proofs.«137438_j9577777070544_1_alg».proof.Proof.Gen.Kernel.Launch
import proofs.«137438_j9577777070544_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Neither host operation writes the image or the structuring element. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The table and the pipeline at its contents -/

/-- The one device. -/
abbrev c₀ : Dev nD := ⟨0, Nat.one_pos⟩

/-- The table of nine words as the region finds it. -/
abbrev tbl : Vec F S9 .i32 := V m c₀ main_v1

/-- The table's contents are admissible: the index maps do not read them. -/
def adm (p : Fin 1) : (pcfgs (F := F) p).Adm := ⟨fun k => V m c₀ (pre0.ref k), trivial⟩

theorem V_pre (c : Dev nD) (k : Fin pre0.K) : V m c (pre0.ref k) = (adm m 0).1 k := by
  obtain rfl : c = c₀ := Subsingleton.elim _ _
  rfl

/-- The pipeline at the table's contents. -/
abbrev cfgA : Cfg sig Λ₀ := cfg0 (adm m 0)
abbrev cfgsA : Fin 1 → Cfg sig Λ₀ := Pipeline.pin (pcfgs (F := F)) (adm m)

/-- Window `w`'s block at point `t`, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- An input window's current staging buffer holds its block at every point, fetched there or not, for any proof data
    whose array is the region-entry one and whose body leaves the block in place. -/
theorem before0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body. -/
abbrev ms0 (t : Fin (cfgA m).N) : Memref sig .tc .vmem S1x128x512x8 .f32 := spec0_0.stage ((cfgA m).slots t 0)
abbrev hs0 (t : Fin (cfgA m).N) : (ms0 m t).IsWhole := hstage0_0 (((cfgA m).slots t 0).cast nbuf0_0)
abbrev ms1 (t : Fin (cfgA m).N) : Memref sig .tc .vmem S1x1x512x8 .f32 := spec0_1.stage ((cfgA m).slots t 1)
abbrev hs1 (t : Fin (cfgA m).N) : (ms1 m t).IsWhole := hstage0_1 (((cfgA m).slots t 1).cast nbuf0_1)
abbrev ms2 (t : Fin (cfgA m).N) : Memref sig .tc .vmem S1x1x512x8 .f32 := spec0_2.stage ((cfgA m).slots t 2)
abbrev hs2 (t : Fin (cfgA m).N) : (ms2 m t).IsWhole := hstage0_2 (((cfgA m).slots t 2).cast nbuf0_2)
abbrev ms3 (t : Fin (cfgA m).N) : Memref sig .tc .vmem S1x128x512x8 .f32 := spec0_3.stage ((cfgA m).slots t 3)
abbrev hs3 (t : Fin (cfgA m).N) : (ms3 m t).IsWhole := hstage0_3 (((cfgA m).slots t 3).cast nbuf0_3)

/-- The table's memref. -/
abbrev tbM : Memref sig .tc .smem S9 .i32 := Memref.whole main_v1

/-- The kernel body at point `t`, on what the pipeline calls it with. -/
abbrev bodyAt (t : Fin (cfgA m).N) : Prog (TpuEff nD τ sig (Elt F) Λ₀ .tc) PUnit :=
  cc0__nms_kernel (grid0.coords t) tbM (Memref.isWhole_whole _) (ms0 m t) (hs0 m t) (ms1 m t) (hs1 m t) (ms2 m t) (hs2 m t) (ms3 m t) (hs3 m t)

end Cert.Kernel.Frame

end
-- ==== Proof.BitsRun.lean ====
/-
  (The same development for the program as printed, read at the word-level instance.)

  The kernel body as one run. On whole staging memrefs — the three input blocks at given contents, the output block at
  anything — and holding the table of nine words at half a share, the body runs to its end leaving the inputs and the table as
  they were and the output block with the body's stores written into it; the list of those stores is found by running the
  body.
-/
import proofs.«137438_j9577777070544_1_alg».proof.Proof.BitsEntry

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output's staging memref, as pieces, with the proof that the body runs to the
    continuation holding the inputs and the table as they were and the output with the pieces written. -/
noncomputable def kernelRun (c : Dev nD) (i : grid0.Coords)
    (arg3 : Memref sig .tc .vmem S1x128x512x8 .f32) (harg3 : arg3.IsWhole) (arg4 : Memref sig .tc .vmem S1x1x512x8 .f32) (harg4 : arg4.IsWhole)
    (arg5 : Memref sig .tc .vmem S1x1x512x8 .f32) (harg5 : arg5.IsWhole) (arg6 : Memref sig .tc .vmem S1x128x512x8 .f32) (harg6 : arg6.IsWhole)
    (T : S9.Idx → Elt F .i32) (x0 : Vec F S1x128x512x8 .f32) (x1 : Vec F S1x1x512x8 .f32) (x2 : Vec F S1x1x512x8 .f32) :
    { L : List (View.Piece (Elt F) S1x128x512x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (tbM.view.loc (c : Thread nD τ) ↦{fullShare.right} T)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (tbM.view.loc (c : Thread nD τ) ↦{fullShare.right} T)) -∗ K ⟨⟩))
          ⊢ wp frame (wpE (defs₀ (F := F)) Variants.none c none) E (cc0__nms_kernel i tbM (Memref.isWhole_whole _) arg3 harg3 arg4 harg4 arg5 harg5 arg6 harg6) K } := by
  refine ⟨?_, fun E K => ?run⟩
  case run =>
    simp only [cc0__nms_kernel_eq_skeleton]; unfold cc0__nms_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, HT, Hk⟩
    obtain rfl := harg3.eq_unread hf0; obtain rfl := harg4.eq_unread hf1; obtain rfl := harg5.eq_unread hf2
    have hT : (tbM : Memref sig .tc .smem S9 .i32).IsWhole := Memref.isWhole_whole _
    sl_exec
    sl_step
    sl_step
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexact HT

end Cert.Kernel.Frame

end
-- ==== Proof.BitsData.lean ====
/-
  (The same development for the program as printed, read at the word-level instance.)

  The kernel's launch, part two: the proof data and the body obligation at every grid point. After the body at a point each
  input's staging buffer still holds its block and the output's holds what the body stored; the region's invariant is the
  kernel's half of the table of nine words; no scratch is carried from point to point.
-/
import proofs.«137438_j9577777070544_1_alg».proof.Proof.BitsRun

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- One staging buffer of the output window, through which its contents are stated. -/
abbrev VO : View sig .tc .vmem S1x128x512x8 .f32 := (Memref.whole cc0_stg3_0 : Memref sig .tc .vmem S1x128x512x8 .f32).view

/-- The body's stores tile the output block, so they cover it. -/
theorem cover (c : Dev nD) (i : grid0.Coords)
    (arg3 : Memref sig .tc .vmem S1x128x512x8 .f32) (harg3 : arg3.IsWhole) (arg4 : Memref sig .tc .vmem S1x1x512x8 .f32) (harg4 : arg4.IsWhole)
    (arg5 : Memref sig .tc .vmem S1x1x512x8 .f32) (harg5 : arg5.IsWhole) (arg6 : Memref sig .tc .vmem S1x128x512x8 .f32) (harg6 : arg6.IsWhole)
    (T : S9.Idx → Elt F .i32) (x0 : Vec F S1x128x512x8 .f32) (x1 : Vec F S1x1x512x8 .f32) (x2 : Vec F S1x1x512x8 .f32) (y : S1x128x512x8.Idx) :
    ∃ pc ∈ (kernelRun c i arg3 harg3 arg4 harg4 arg5 harg5 arg6 harg6 T x0 x1 x2).1, y ∈ pc.1.set :=
  View.cover_of_tiledL (kernelRun c i arg3 harg3 arg4 harg4 arg5 harg5 arg6 harg6 T x0 x1 x2).1 S1x128x512x8.size (by sl_kernel_rfl) y

/-- What the run leaves in the output's staging buffer: its pieces read back. -/
def out (c : Dev nD) (i : grid0.Coords)
    (arg3 : Memref sig .tc .vmem S1x128x512x8 .f32) (harg3 : arg3.IsWhole) (arg4 : Memref sig .tc .vmem S1x1x512x8 .f32) (harg4 : arg4.IsWhole)
    (arg5 : Memref sig .tc .vmem S1x1x512x8 .f32) (harg5 : arg5.IsWhole) (arg6 : Memref sig .tc .vmem S1x128x512x8 .f32) (harg6 : arg6.IsWhole)
    (T : S9.Idx → Elt F .i32) (x0 : Vec F S1x128x512x8 .f32) (x1 : Vec F S1x1x512x8 .f32) (x2 : Vec F S1x1x512x8 .f32) : Vec F S1x128x512x8 .f32 :=
  VO.read (Elt F) (VO.writes (Elt F) VO.junk (kernelRun c i arg3 harg3 arg4 harg4 arg5 harg5 arg6 harg6 T x0 x1 x2).1)

/-- The output block after the body at point `t`: the run's contents at the point's memrefs, the table and the input blocks. -/
def outAt (c : Dev nD) (t : Fin (cfgA m).N) : Vec F S1x128x512x8 .f32 :=
  out c (grid0.coords t) (ms0 m t) (hs0 m t) (ms1 m t) (hs1 m t) (ms2 m t) (hs2 m t) (ms3 m t) (hs3 m t) (tbl m) (iblk m c 0 t) (iblk m c 1 t) (iblk m c 2 t)

/-! ## The proof data -/

/-- The region's invariant: the kernel's half of the table. -/
def Phi (c : Dev nD) : sProp 𝕄 := iprop(tbM.view.loc (c : Thread nD τ) ↦{fullShare.right} (tbl m))

/-- The proof data of the pipeline on core `c`: the arrays as the region finds them; each input's buffer left at its block,
    the output's at what the body stores; the image's shares one half and two quarters. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Phi m c
  q w := match w with
    | ⟨0, _⟩ => (fullShare : PosShare TreeShare).left
    | ⟨1, _⟩ => (fullShare : PosShare TreeShare).right.left
    | ⟨2, _⟩ => (fullShare : PosShare TreeShare).right.right
    | ⟨3, _⟩ => fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = outAt m c t := by dsimp only [dats]; rfl

theorem before0 (c : Dev nD) (t : Fin (cfgA m).N) (d) : (dats m 0 c).before 0 t d = iblk m c 0 t :=
  before0_of m (dats m 0 c) (A_eq m c 0) (after0 m c) t d
theorem before1 (c : Dev nD) (t : Fin (cfgA m).N) (d) : (dats m 0 c).before 1 t d = iblk m c 1 t :=
  before1_of m (dats m 0 c) (A_eq m c 1) (after1 m c) t d
theorem before2 (c : Dev nD) (t : Fin (cfgA m).N) (d) : (dats m 0 c).before 2 t d = iblk m c 2 t :=
  before2_of m (dats m 0 c) (A_eq m c 2) (after2 m c) t d

/-! ## The body obligation -/

def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

def bodyPost (c : Dev nD) (t : Fin (cfgA m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

/-- The body at any point: the inputs' buffers hold their blocks, so the run applies; the table passes through; the core owes
    nothing throughout. -/
theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).Φ t.succ = Phi m c from rfl, show (dats m 0 c).Φ t.castSucc = Phi m c from rfl,
    show (dats m 0 c).owesAt () t.succ = (dats m 0 c).owesAt () t.castSucc from rfl,
    after0, after1, after2, after3]
  unfold outAt out Phi
  iintro ⟨HT, Ho, ⟨%d0, H0⟩, ⟨%d1, H1⟩, ⟨%d2, H2⟩, ⟨%d3, H3⟩⟩
  iapply ((kernelRun c (grid0.coords t) _ _ _ _ _ _ _ _ (tbl m) (iblk m c 0 t) (iblk m c 1 t) (iblk m c 2 t)).2 Set.univ _)
  isplitl [H0]; · iexact H0
  isplitl [H1]; · iexact H1
  isplitl [H2]; · iexact H2
  isplitl [H3]; · iexists _; iexact H3
  isplitl [HT]; · iexact HT
  iintro ⟨H0, H1, H2, ⟨%e3, H3⟩, HT⟩
  isplitl [HT]; · iexact HT
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.BitsShares.lean ====
/-
  (The same development for the program as printed, read at the word-level instance.)

  How the image's buffer is dealt among the three windows that read it. The buffer is held whole, at the full share, when the
  region is entered; the window of the point's rows takes one half of the share and the windows of the row above and the row
  below a quarter each. An input window only lends its array to the fetches, so any positive share serves. The result's
  buffer goes whole to the one window that writes it.
-/
import proofs.«137438_j9577777070544_1_alg».proof.Proof.BitsData

set_option maxRecDepth 16384

noncomputable section

namespace Cert.Kernel.Frame

open Idealize.ShloMosaic Idealize.ShloMosaic.Pipeline
open Idealize.SL
open Idealize.SL.BI (sProp bigSep bigSep_insert bigSep_singleton)
open scoped Idealize.SL.BI
open Idealize.SL.BI.BIBase Idealize.SL.BI.Laws Idealize.SL.Sem Idealize.SL.ProofMode
open Idealize.SL.RA
open Idealize.ShloMosaic.Rounds
open TcCoe
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A buffer held at the full share is the same buffer held at one half and two quarters. -/
theorem split3 {ℓ : Loc nD τ sig} (I : Finset (Idx ℓ)) (f : Buf (Elt F) ℓ) :
    (ℓ ↦[I]{fullShare} f : sProp 𝕄) ⊢ iprop((ℓ ↦[I]{(fullShare : PosShare TreeShare).left} f)
      ∗ (ℓ ↦[I]{(fullShare : PosShare TreeShare).right.left} f) ∗ (ℓ ↦[I]{(fullShare : PosShare TreeShare).right.right} f)) := by
  iintro H
  ihave H2 := (pointsTo_share (PosShare.mem_left_op_right (fullShare : PosShare TreeShare))).1 $$ H
  icases H2 with ⟨HL, HR⟩
  ihave HR2 := (pointsTo_share (PosShare.mem_left_op_right (fullShare : PosShare TreeShare).right)).1 $$ HR
  icases HR2 with ⟨H1, H2⟩
  isplitl [HL]; · iexact HL
  isplitl [H1]; · iexact H1
  iexact H2

/-- The windows' arrays are two buffers: the image and the result. -/
theorem arrRefs_eq : (Finset.univ.image (Pipeline.arrRef spec0) : Finset (Ref sig .tc)) = insert main_arg0 {main_v2} := by decide

theorem arrBufs_eq (c : Dev nD) :
    (Pipeline.arrBufs (Ix := Unit) (Name := ℕ) (U := UR sig nD τ) (Lvl := ℕ) (cfgA m).spec c (V m c) : sProp 𝕄)
      = iprop((((c : Thread nD τ).loc main_arg0) ↦{fullShare} V m c main_arg0) ∗ (((c : Thread nD τ).loc main_v2) ↦{fullShare} V m c main_v2)) := by
  unfold Pipeline.arrBufs
  rw [show (Finset.univ.image (Pipeline.arrRef (cfgA m).spec)) = insert main_arg0 {main_v2} from arrRefs_eq,
    bigSep_insert (by decide), bigSep_singleton]
  rfl

/-- The image's buffer, whole at the full share, dealt among the three windows that read it; the result's buffer whole to
    the window that writes it. -/
theorem arrays0_eq (c : Dev nD) :
    (dats m 0 c).arrays ((dats m 0 c).arrAt · 0)
      = bigSep Finset.univ fun w : Fin (cfgA m).W => (((cfgA m).win w).arr.view.loc (c : Thread nD τ) ↦{(dats m 0 c).share w} V m c (Pipeline.arrRef spec0 w) : sProp 𝕄) := by
  have harr : ∀ w, ((cfgA m).win w).arr.IsWhole := arr_whole0
  unfold Dat.arrays
  exact BI.bigSep_congr fun w _ => by
    rw [(harr w).set_eq_univ]
    exact congrArg _ (show (dats m 0 c).arrAt w 0 = V m c (Pipeline.arrRef spec0 w) from A_eq m c w)

theorem hsplit (c : Dev nD) :
    Pipeline.arrBufs (Ix := Unit) (Name := ℕ) (U := UR sig nD τ) (Lvl := ℕ) (cfgA m).spec c (V m c) ⊢ (dats m 0 c).arrays ((dats m 0 c).arrAt · 0) := by
  rw [arrBufs_eq, arrays0_eq, bigSep_W0]
  iintro HA
  icases HA with ⟨HI, H3⟩
  ihave HS := (split3 (F := F) _ _) $$ HI
  icases HS with ⟨HL, HRL, HRR⟩
  isplitl [HL]; · iexact HL
  isplitl [HRL]; · iexact HRL
  isplitl [HRR]; · iexact HRR
  iexact H3

end Cert.Kernel.Frame

end
-- ==== Proof.BitsFrame.lean ====
/-
  (The same development for the program as printed, read at the word-level instance.)

  The kernel's launch, part three: the run of @main and the frame. The launch hands the region the image and the result
  buffers, the table's two halves and nothing else of its own; every other unscoped buffer bypasses the region and is read
  back at the end as the region found it.
-/
import proofs.«137438_j9577777070544_1_alg».proof.Proof.BitsShares

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The table as the launch hands it to the region. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop(((c : Thread nD τ).loc main_v1) ↦{q 0} v 0) := by
  unfold Pipeline.prefHeld
  rw [show (Finset.univ : Finset (Fin 1)) = {(0 : Fin 1)} from by decide, bigSep_singleton]
  rfl

/-- The invariant at the first point is the kernel's half of the table; -/
theorem phi_intro (c : Dev nD) :
    iprop(BI.emp ∗ Pipeline.prefHeld pre0 c (fun _ => fullShare.right) (adm m 0).1 ∗ Pipeline.scopedRest spec0 c) ⊢ (dats m 0 c).Φ 0 := by
  rw [prefHeld_eq, scopedRest0_eq, show (dats m 0 c).Φ 0 = Phi m c from rfl]
  unfold Phi adm
  iintro ⟨-, HT, -⟩
  iexact HT

/-- after the last point it is let go. -/
theorem phi_exit (c : Dev nD) : (dats m 0 c).Φ (Fin.last (cfgA m).N) ⊢ iprop(BI.emp ∗ Pipeline.scopedRest spec0 c) := by
  rw [scopedRest0_eq]
  iintro -
  isplitr <;> iempintro

abbrev EP : Emb (UR sig nD τ) 𝕄 := emb₁

/-- The launch element of the ghost state. -/
def u₀ : UR sig nD τ :=
  initOf (Pipeline.cells (cfgsA m) (cellOf_inj (adm m))) (Pipeline.launchToks (cfgsA m) (cellOf_inj (adm m)))

/-- What the run ends in: every array of the pipeline at what the library computes from the proof data, every other
    unscoped buffer but the table as the region found it. -/
def Post (r : PUnit × MemSt nD τ sig (Elt F)) : Prop :=
  ∀ c : Dev nD, (∀ w : Fin (cfgA m).W, r.2.mem (((cfgA m).win w).arr.view.loc (c : Thread nD τ)) = (dats m 0 c).arrAt w (cfgA m).N)
    ∧ ∀ b ∈ Pipeline.restRefsP sig pre0 spec0, r.2.mem ((c : Thread nD τ).loc b) = V m c b

set_option backward.isDefEq.respectTransparency.types false in
set_option maxHeartbeats 4000000 in
/-- From any memory with zero counters every weakly fair execution of @main terminates in such a state. -/
theorem run_main : θ_run (defs (F := F)) (onTc (τ := τ) (main (F := F))) (s₀ m ρ) (Post m) :=
  Pipeline.θ_run_region_noSem_pf pcfgs (adm m) (dats m) () (cellOf_inj (adm m)) (0 : Fin 1)
    winFacts₀0 preFacts0 EP defs₀ Variants.none m ρ main
    (hbody := fun c => (body_obligation m c).loose) (hne := block_pos0)
    (harr := arr_whole0) (hstage := stage_whole0) (howed := fun _ _ => rfl)
    (u₀ := u₀ m) (hu₀ := .rfl)
    (V := V m) (hmain := hmain m Variants.none)
    (hsplit := hsplit m) (hpf := V_pre m)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro H
      isplitr; · iempintro
      iexact H)
    (hin := phi_intro m)
    (hout := phi_exit m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c : Thread nD τ).loc b) (V m c) s')
      isplitl [HU] <;> iassumption)
    (hQ := fun s h c => ⟨(h c).1, (h c).2.2⟩)

/-- The frame: @main runs to the end, nothing faults, and the image and the structuring element end as they began. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Finset.mem_sdiff.mpr ⟨Pipeline.mem_restRefs_of main_arg1 (by decide) (by decide), by decide⟩)).trans (V_main_arg1 m c)⟩) (run_main m ρ)

end Cert.Kernel.Frame

end
-- ==== Proof.Entry.lean ====
/-
  The kernel's launch, part one: what the region finds and what it is called with.

  @main reshapes the 3×3 structuring element to nine bits and widens them to nine words (the table the kernel reads in
  scalar memory), then runs one region over a 16 × 4 grid: point (b, i) works on rows 128·i … 128·i + 127 of plane b. Three
  windows read the SAME image — the point's 128 rows, the single row above them and the single row below them (row numbers
  clamped into the image) — and one window writes the point's 128 rows of the result.
-/
import proofs.«137438_j9577777070544_1_alg».proof.Proof.Gen.KernelIdeal.Launch
import proofs.«137438_j9577777070544_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Neither host operation writes the image or the structuring element. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The table and the pipeline at its contents -/

/-- The one device. -/
abbrev c₀ : Dev nD := ⟨0, Nat.one_pos⟩

/-- The table of nine words as the region finds it. -/
abbrev tbl : Vec F S9 .i32 := V m c₀ main_v1

/-- The table's contents are admissible: the index maps do not read them. -/
def adm (p : Fin 1) : (pcfgs (F := F) p).Adm := ⟨fun k => V m c₀ (pre0.ref k), trivial⟩

theorem V_pre (c : Dev nD) (k : Fin pre0.K) : V m c (pre0.ref k) = (adm m 0).1 k := by
  obtain rfl : c = c₀ := Subsingleton.elim _ _
  rfl

/-- The pipeline at the table's contents. -/
abbrev cfgA : Cfg sig Λ₀ := cfg0 (adm m 0)
abbrev cfgsA : Fin 1 → Cfg sig Λ₀ := Pipeline.pin (pcfgs (F := F)) (adm m)

/-- Window `w`'s block at point `t`, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- An input window's current staging buffer holds its block at every point, fetched there or not, for any proof data
    whose array is the region-entry one and whose body leaves the block in place. -/
theorem before0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body. -/
abbrev ms0 (t : Fin (cfgA m).N) : Memref sig .tc .vmem S1x128x512x8 .f32 := spec0_0.stage ((cfgA m).slots t 0)
abbrev hs0 (t : Fin (cfgA m).N) : (ms0 m t).IsWhole := hstage0_0 (((cfgA m).slots t 0).cast nbuf0_0)
abbrev ms1 (t : Fin (cfgA m).N) : Memref sig .tc .vmem S1x1x512x8 .f32 := spec0_1.stage ((cfgA m).slots t 1)
abbrev hs1 (t : Fin (cfgA m).N) : (ms1 m t).IsWhole := hstage0_1 (((cfgA m).slots t 1).cast nbuf0_1)
abbrev ms2 (t : Fin (cfgA m).N) : Memref sig .tc .vmem S1x1x512x8 .f32 := spec0_2.stage ((cfgA m).slots t 2)
abbrev hs2 (t : Fin (cfgA m).N) : (ms2 m t).IsWhole := hstage0_2 (((cfgA m).slots t 2).cast nbuf0_2)
abbrev ms3 (t : Fin (cfgA m).N) : Memref sig .tc .vmem S1x128x512x8 .f32 := spec0_3.stage ((cfgA m).slots t 3)
abbrev hs3 (t : Fin (cfgA m).N) : (ms3 m t).IsWhole := hstage0_3 (((cfgA m).slots t 3).cast nbuf0_3)

/-- The table's memref. -/
abbrev tbM : Memref sig .tc .smem S9 .i32 := Memref.whole main_v1

/-- The kernel body at point `t`, on what the pipeline calls it with. -/
abbrev bodyAt (t : Fin (cfgA m).N) : Prog (TpuEff nD τ sig (Elt F) Λ₀ .tc) PUnit :=
  cc0__nms_kernel (grid0.coords t) tbM (Memref.isWhole_whole _) (ms0 m t) (hs0 m t) (ms1 m t) (hs1 m t) (ms2 m t) (hs2 m t) (ms3 m t) (hs3 m t)

end Cert.KernelIdeal.Frame

end
-- ==== Proof.Run.lean ====
/-
  The kernel body as one run. On whole staging memrefs — the three input blocks at given contents, the output block at
  anything — and holding the table of nine words at half a share, the body runs to its end leaving the inputs and the table as
  they were and the output block with the body's stores written into it; the list of those stores is found by running the
  body.
-/
import proofs.«137438_j9577777070544_1_alg».proof.Proof.Entry

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output's staging memref, as pieces, with the proof that the body runs to the
    continuation holding the inputs and the table as they were and the output with the pieces written. -/
noncomputable def kernelRun (c : Dev nD) (i : grid0.Coords)
    (arg3 : Memref sig .tc .vmem S1x128x512x8 .f32) (harg3 : arg3.IsWhole) (arg4 : Memref sig .tc .vmem S1x1x512x8 .f32) (harg4 : arg4.IsWhole)
    (arg5 : Memref sig .tc .vmem S1x1x512x8 .f32) (harg5 : arg5.IsWhole) (arg6 : Memref sig .tc .vmem S1x128x512x8 .f32) (harg6 : arg6.IsWhole)
    (T : S9.Idx → Elt F .i32) (x0 : Vec F S1x128x512x8 .f32) (x1 : Vec F S1x1x512x8 .f32) (x2 : Vec F S1x1x512x8 .f32) :
    { L : List (View.Piece (Elt F) S1x128x512x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (tbM.view.loc (c : Thread nD τ) ↦{fullShare.right} T)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (tbM.view.loc (c : Thread nD τ) ↦{fullShare.right} T)) -∗ K ⟨⟩))
          ⊢ wp frame (wpE (defs₀ (F := F)) Variants.none c none) E (cc0__nms_kernel i tbM (Memref.isWhole_whole _) arg3 harg3 arg4 harg4 arg5 harg5 arg6 harg6) K } := by
  refine ⟨?_, fun E K => ?run⟩
  case run =>
    simp only [cc0__nms_kernel_eq_skeleton]; unfold cc0__nms_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, HT, Hk⟩
    obtain rfl := harg3.eq_unread hf0; obtain rfl := harg4.eq_unread hf1; obtain rfl := harg5.eq_unread hf2
    have hT : (tbM : Memref sig .tc .smem S9 .i32).IsWhole := Memref.isWhole_whole _
    sl_exec
    sl_step
    sl_step
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexact HT

end Cert.KernelIdeal.Frame

end
-- ==== Proof.Data.lean ====
/-
  The kernel's launch, part two: the proof data and the body obligation at every grid point. After the body at a point each
  input's staging buffer still holds its block and the output's holds what the body stored; the region's invariant is the
  kernel's half of the table of nine words; no scratch is carried from point to point.
-/
import proofs.«137438_j9577777070544_1_alg».proof.Proof.Run

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- One staging buffer of the output window, through which its contents are stated. -/
abbrev VO : View sig .tc .vmem S1x128x512x8 .f32 := (Memref.whole cc0_stg3_0 : Memref sig .tc .vmem S1x128x512x8 .f32).view

/-- The body's stores tile the output block, so they cover it. -/
theorem cover (c : Dev nD) (i : grid0.Coords)
    (arg3 : Memref sig .tc .vmem S1x128x512x8 .f32) (harg3 : arg3.IsWhole) (arg4 : Memref sig .tc .vmem S1x1x512x8 .f32) (harg4 : arg4.IsWhole)
    (arg5 : Memref sig .tc .vmem S1x1x512x8 .f32) (harg5 : arg5.IsWhole) (arg6 : Memref sig .tc .vmem S1x128x512x8 .f32) (harg6 : arg6.IsWhole)
    (T : S9.Idx → Elt F .i32) (x0 : Vec F S1x128x512x8 .f32) (x1 : Vec F S1x1x512x8 .f32) (x2 : Vec F S1x1x512x8 .f32) (y : S1x128x512x8.Idx) :
    ∃ pc ∈ (kernelRun c i arg3 harg3 arg4 harg4 arg5 harg5 arg6 harg6 T x0 x1 x2).1, y ∈ pc.1.set :=
  View.cover_of_tiledL (kernelRun c i arg3 harg3 arg4 harg4 arg5 harg5 arg6 harg6 T x0 x1 x2).1 S1x128x512x8.size (by sl_kernel_rfl) y

/-- What the run leaves in the output's staging buffer: its pieces read back. -/
def out (c : Dev nD) (i : grid0.Coords)
    (arg3 : Memref sig .tc .vmem S1x128x512x8 .f32) (harg3 : arg3.IsWhole) (arg4 : Memref sig .tc .vmem S1x1x512x8 .f32) (harg4 : arg4.IsWhole)
    (arg5 : Memref sig .tc .vmem S1x1x512x8 .f32) (harg5 : arg5.IsWhole) (arg6 : Memref sig .tc .vmem S1x128x512x8 .f32) (harg6 : arg6.IsWhole)
    (T : S9.Idx → Elt F .i32) (x0 : Vec F S1x128x512x8 .f32) (x1 : Vec F S1x1x512x8 .f32) (x2 : Vec F S1x1x512x8 .f32) : Vec F S1x128x512x8 .f32 :=
  VO.read (Elt F) (VO.writes (Elt F) VO.junk (kernelRun c i arg3 harg3 arg4 harg4 arg5 harg5 arg6 harg6 T x0 x1 x2).1)

/-- The output block after the body at point `t`: the run's contents at the point's memrefs, the table and the input blocks. -/
def outAt (c : Dev nD) (t : Fin (cfgA m).N) : Vec F S1x128x512x8 .f32 :=
  out c (grid0.coords t) (ms0 m t) (hs0 m t) (ms1 m t) (hs1 m t) (ms2 m t) (hs2 m t) (ms3 m t) (hs3 m t) (tbl m) (iblk m c 0 t) (iblk m c 1 t) (iblk m c 2 t)

/-! ## The proof data -/

/-- The region's invariant: the kernel's half of the table. -/
def Phi (c : Dev nD) : sProp 𝕄 := iprop(tbM.view.loc (c : Thread nD τ) ↦{fullShare.right} (tbl m))

/-- The proof data of the pipeline on core `c`: the arrays as the region finds them; each input's buffer left at its block,
    the output's at what the body stores; the image's shares one half and two quarters. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Phi m c
  q w := match w with
    | ⟨0, _⟩ => (fullShare : PosShare TreeShare).left
    | ⟨1, _⟩ => (fullShare : PosShare TreeShare).right.left
    | ⟨2, _⟩ => (fullShare : PosShare TreeShare).right.right
    | ⟨3, _⟩ => fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = outAt m c t := by dsimp only [dats]; rfl

theorem before0 (c : Dev nD) (t : Fin (cfgA m).N) (d) : (dats m 0 c).before 0 t d = iblk m c 0 t :=
  before0_of m (dats m 0 c) (A_eq m c 0) (after0 m c) t d
theorem before1 (c : Dev nD) (t : Fin (cfgA m).N) (d) : (dats m 0 c).before 1 t d = iblk m c 1 t :=
  before1_of m (dats m 0 c) (A_eq m c 1) (after1 m c) t d
theorem before2 (c : Dev nD) (t : Fin (cfgA m).N) (d) : (dats m 0 c).before 2 t d = iblk m c 2 t :=
  before2_of m (dats m 0 c) (A_eq m c 2) (after2 m c) t d

/-! ## The body obligation -/

def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

def bodyPost (c : Dev nD) (t : Fin (cfgA m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

/-- The body at any point: the inputs' buffers hold their blocks, so the run applies; the table passes through; the core owes
    nothing throughout. -/
theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).Φ t.succ = Phi m c from rfl, show (dats m 0 c).Φ t.castSucc = Phi m c from rfl,
    show (dats m 0 c).owesAt () t.succ = (dats m 0 c).owesAt () t.castSucc from rfl,
    after0, after1, after2, after3]
  unfold outAt out Phi
  iintro ⟨HT, Ho, ⟨%d0, H0⟩, ⟨%d1, H1⟩, ⟨%d2, H2⟩, ⟨%d3, H3⟩⟩
  iapply ((kernelRun c (grid0.coords t) _ _ _ _ _ _ _ _ (tbl m) (iblk m c 0 t) (iblk m c 1 t) (iblk m c 2 t)).2 Set.univ _)
  isplitl [H0]; · iexact H0
  isplitl [H1]; · iexact H1
  isplitl [H2]; · iexact H2
  isplitl [H3]; · iexists _; iexact H3
  isplitl [HT]; · iexact HT
  iintro ⟨H0, H1, H2, ⟨%e3, H3⟩, HT⟩
  isplitl [HT]; · iexact HT
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.Shares.lean ====
/-
  How the image's buffer is dealt among the three windows that read it. The buffer is held whole, at the full share, when the
  region is entered; the window of the point's rows takes one half of the share and the windows of the row above and the row
  below a quarter each. An input window only lends its array to the fetches, so any positive share serves. The result's
  buffer goes whole to the one window that writes it.
-/
import proofs.«137438_j9577777070544_1_alg».proof.Proof.Data

set_option maxRecDepth 16384

noncomputable section

namespace Cert.KernelIdeal.Frame

open Idealize.ShloMosaic Idealize.ShloMosaic.Pipeline
open Idealize.SL
open Idealize.SL.BI (sProp bigSep bigSep_insert bigSep_singleton)
open scoped Idealize.SL.BI
open Idealize.SL.BI.BIBase Idealize.SL.BI.Laws Idealize.SL.Sem Idealize.SL.ProofMode
open Idealize.SL.RA
open Idealize.ShloMosaic.Rounds
open TcCoe
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A buffer held at the full share is the same buffer held at one half and two quarters. -/
theorem split3 {ℓ : Loc nD τ sig} (I : Finset (Idx ℓ)) (f : Buf (Elt F) ℓ) :
    (ℓ ↦[I]{fullShare} f : sProp 𝕄) ⊢ iprop((ℓ ↦[I]{(fullShare : PosShare TreeShare).left} f)
      ∗ (ℓ ↦[I]{(fullShare : PosShare TreeShare).right.left} f) ∗ (ℓ ↦[I]{(fullShare : PosShare TreeShare).right.right} f)) := by
  iintro H
  ihave H2 := (pointsTo_share (PosShare.mem_left_op_right (fullShare : PosShare TreeShare))).1 $$ H
  icases H2 with ⟨HL, HR⟩
  ihave HR2 := (pointsTo_share (PosShare.mem_left_op_right (fullShare : PosShare TreeShare).right)).1 $$ HR
  icases HR2 with ⟨H1, H2⟩
  isplitl [HL]; · iexact HL
  isplitl [H1]; · iexact H1
  iexact H2

/-- The windows' arrays are two buffers: the image and the result. -/
theorem arrRefs_eq : (Finset.univ.image (Pipeline.arrRef spec0) : Finset (Ref sig .tc)) = insert main_arg0 {main_v2} := by decide

theorem arrBufs_eq (c : Dev nD) :
    (Pipeline.arrBufs (Ix := Unit) (Name := ℕ) (U := UR sig nD τ) (Lvl := ℕ) (cfgA m).spec c (V m c) : sProp 𝕄)
      = iprop((((c : Thread nD τ).loc main_arg0) ↦{fullShare} V m c main_arg0) ∗ (((c : Thread nD τ).loc main_v2) ↦{fullShare} V m c main_v2)) := by
  unfold Pipeline.arrBufs
  rw [show (Finset.univ.image (Pipeline.arrRef (cfgA m).spec)) = insert main_arg0 {main_v2} from arrRefs_eq,
    bigSep_insert (by decide), bigSep_singleton]
  rfl

/-- The image's buffer, whole at the full share, dealt among the three windows that read it; the result's buffer whole to
    the window that writes it. -/
theorem arrays0_eq (c : Dev nD) :
    (dats m 0 c).arrays ((dats m 0 c).arrAt · 0)
      = bigSep Finset.univ fun w : Fin (cfgA m).W => (((cfgA m).win w).arr.view.loc (c : Thread nD τ) ↦{(dats m 0 c).share w} V m c (Pipeline.arrRef spec0 w) : sProp 𝕄) := by
  have harr : ∀ w, ((cfgA m).win w).arr.IsWhole := arr_whole0
  unfold Dat.arrays
  exact BI.bigSep_congr fun w _ => by
    rw [(harr w).set_eq_univ]
    exact congrArg _ (show (dats m 0 c).arrAt w 0 = V m c (Pipeline.arrRef spec0 w) from A_eq m c w)

theorem hsplit (c : Dev nD) :
    Pipeline.arrBufs (Ix := Unit) (Name := ℕ) (U := UR sig nD τ) (Lvl := ℕ) (cfgA m).spec c (V m c) ⊢ (dats m 0 c).arrays ((dats m 0 c).arrAt · 0) := by
  rw [arrBufs_eq, arrays0_eq, bigSep_W0]
  iintro HA
  icases HA with ⟨HI, H3⟩
  ihave HS := (split3 (F := F) _ _) $$ HI
  icases HS with ⟨HL, HRL, HRR⟩
  isplitl [HL]; · iexact HL
  isplitl [HRL]; · iexact HRL
  isplitl [HRR]; · iexact HRR
  iexact H3

end Cert.KernelIdeal.Frame

end
-- ==== Proof.Frame.lean ====
/-
  The kernel's launch, part three: the run of @main and the frame. The launch hands the region the image and the result
  buffers, the table's two halves and nothing else of its own; every other unscoped buffer bypasses the region and is read
  back at the end as the region found it.
-/
import proofs.«137438_j9577777070544_1_alg».proof.Proof.Shares

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The table as the launch hands it to the region. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop(((c : Thread nD τ).loc main_v1) ↦{q 0} v 0) := by
  unfold Pipeline.prefHeld
  rw [show (Finset.univ : Finset (Fin 1)) = {(0 : Fin 1)} from by decide, bigSep_singleton]
  rfl

/-- The invariant at the first point is the kernel's half of the table; -/
theorem phi_intro (c : Dev nD) :
    iprop(BI.emp ∗ Pipeline.prefHeld pre0 c (fun _ => fullShare.right) (adm m 0).1 ∗ Pipeline.scopedRest spec0 c) ⊢ (dats m 0 c).Φ 0 := by
  rw [prefHeld_eq, scopedRest0_eq, show (dats m 0 c).Φ 0 = Phi m c from rfl]
  unfold Phi adm
  iintro ⟨-, HT, -⟩
  iexact HT

/-- after the last point it is let go. -/
theorem phi_exit (c : Dev nD) : (dats m 0 c).Φ (Fin.last (cfgA m).N) ⊢ iprop(BI.emp ∗ Pipeline.scopedRest spec0 c) := by
  rw [scopedRest0_eq]
  iintro -
  isplitr <;> iempintro

abbrev EP : Emb (UR sig nD τ) 𝕄 := emb₁

/-- The launch element of the ghost state. -/
def u₀ : UR sig nD τ :=
  initOf (Pipeline.cells (cfgsA m) (cellOf_inj (adm m))) (Pipeline.launchToks (cfgsA m) (cellOf_inj (adm m)))

/-- What the run ends in: every array of the pipeline at what the library computes from the proof data, every other
    unscoped buffer but the table as the region found it. -/
def Post (r : PUnit × MemSt nD τ sig (Elt F)) : Prop :=
  ∀ c : Dev nD, (∀ w : Fin (cfgA m).W, r.2.mem (((cfgA m).win w).arr.view.loc (c : Thread nD τ)) = (dats m 0 c).arrAt w (cfgA m).N)
    ∧ ∀ b ∈ Pipeline.restRefsP sig pre0 spec0, r.2.mem ((c : Thread nD τ).loc b) = V m c b

set_option backward.isDefEq.respectTransparency.types false in
set_option maxHeartbeats 4000000 in
/-- From any memory with zero counters every weakly fair execution of @main terminates in such a state. -/
theorem run_main : θ_run (defs (F := F)) (onTc (τ := τ) (main (F := F))) (s₀ m ρ) (Post m) :=
  Pipeline.θ_run_region_noSem_pf pcfgs (adm m) (dats m) () (cellOf_inj (adm m)) (0 : Fin 1)
    winFacts₀0 preFacts0 EP defs₀ Variants.none m ρ main
    (hbody := fun c => (body_obligation m c).loose) (hne := block_pos0)
    (harr := arr_whole0) (hstage := stage_whole0) (howed := fun _ _ => rfl)
    (u₀ := u₀ m) (hu₀ := .rfl)
    (V := V m) (hmain := hmain m Variants.none)
    (hsplit := hsplit m) (hpf := V_pre m)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro H
      isplitr; · iempintro
      iexact H)
    (hin := phi_intro m)
    (hout := phi_exit m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c : Thread nD τ).loc b) (V m c) s')
      isplitl [HU] <;> iassumption)
    (hQ := fun s h c => ⟨(h c).1, (h c).2.2⟩)

/-- The frame: @main runs to the end, nothing faults, and the image and the structuring element end as they began. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Finset.mem_sdiff.mpr ⟨Pipeline.mem_restRefs_of main_arg1 (by decide) (by decide), by decide⟩)).trans (V_main_arg1 m c)⟩) (run_main m ρ)

end Cert.KernelIdeal.Frame

end
-- ==== Proof.Stored.lean ====
/-
  What one grid point of the kernel stores into its output block, as one pure term: the body's arithmetic over the three
  blocks it loads (the point's 128 rows, the row above them and the row below them) and the nine words of the structuring
  element's table, composed from the body's named pieces in the order the body computes them.
-/
import proofs.«137438_j9577777070544_1_alg».proof.Proof.Gen.KernelIdeal.Skeleton
import Idealize.ShloMosaic.Lib.ValueIdx

noncomputable section

namespace Cert.KernelIdeal.Body

open Idealize.ShloMosaic Idealize.SL.Sem Idealize.ShloMosaic.ValueIdx Cert.KernelIdeal Cert.KernelIdeal.Gen

variable {F : FTy → Type} [FloatOps F]

/-- The output block of grid point `i`, from the table's words `tbl`, the point's rows `x0`, the row above `xt` and the row
    below `xb`. -/
def stored (i : grid0.Coords) (tbl : Vec F S9 .i32) (x0 : Vec F S1x128x512x8 .f32) (xt xb : Vec F S1x1x512x8 .f32) :
    FVec F S1x128x512x8 .f32 :=
  k0_pay1 (k0_pay2 x0) (k0_pay7 (k0_pay3 i x0 xb))
    (k0_pay8 (k0_pay2 x0) (k0_pay3 i x0 xb) (k0_pay4 i x0 xt) (k0_pay5 i x0 xt (tbl (ix1 0))) (k0_pay6 i x0 xt (tbl (ix1 1)))
      (tbl (ix1 2)) (tbl (ix1 3)) (tbl (ix1 4)) (tbl (ix1 5)) (tbl (ix1 6)))
    (k0_pay9 (k0_pay3 i x0 xb)) (tbl (ix1 7)) 0#32 (tbl (ix1 8))

end Cert.KernelIdeal.Body

end
-- ==== Proof.OutIsStored.lean ====
/-
  What the body's run leaves in the output block is the pure term `stored`: the run's single store covers the block, its
  payload is the body's arithmetic over the three loaded blocks — each read back whole through the zero-offset rectangle —
  and the nine words of the table, word k read through the one-element rectangle at k.
-/
import proofs.«137438_j9577777070544_1_alg».proof.Proof.Data
import proofs.«137438_j9577777070544_1_alg».proof.Proof.Stored
import Idealize.ShloMosaic.Lib.Pipeline.Value
set_option maxRecDepth 16384
noncomputable section
namespace Cert.KernelIdeal.Frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

theorem hz4 : (![0, 0, 0, 0] : Fin 4 → Nat) = fun _ => 0 := funext fun a => by fin_cases a <;> rfl

theorem ld_word (T : S9.Idx → Elt F .i32) (off : Fin 1 → Nat) (inb : ∀ a, off a + (![1] : Fin 1 → Nat) a ≤ S9.size a)
    (h : 0 < (Rect.unit (s := S9) off ![1] inb).shape.numel) (k : Fin 9) (hk : off 0 = k.val) :
    View.ld T (Rect.unit (s := S9) off ![1] inb) (Shape.Idx.first h) = T (ValueIdx.ix1 k) := by
  show T _ = T _
  congr 1
  funext a
  match a with
  | ⟨0, _⟩ =>
    apply Fin.ext
    first
      | (show off 0 + 1 * 0 = k.val; omega)
      | (show off 0 + 0 = k.val; omega)
      | (show off 0 + 1 * (0 : Nat) = k.val; omega)
      | (simp [Shape.Idx.first, hk]; done)

theorem out_eq (c : Dev nD) (i : grid0.Coords)
    (arg3 : Memref sig .tc .vmem S1x128x512x8 .f32) (harg3 : arg3.IsWhole) (arg4 : Memref sig .tc .vmem S1x1x512x8 .f32) (harg4 : arg4.IsWhole)
    (arg5 : Memref sig .tc .vmem S1x1x512x8 .f32) (harg5 : arg5.IsWhole) (arg6 : Memref sig .tc .vmem S1x128x512x8 .f32) (harg6 : arg6.IsWhole)
    (T : S9.Idx → Elt F .i32) (x0 : Vec F S1x128x512x8 .f32) (x1 : Vec F S1x1x512x8 .f32) (x2 : Vec F S1x1x512x8 .f32) :
    out c i arg3 harg3 arg4 harg4 arg5 harg5 arg6 harg6 T x0 x1 x2 = Body.stored i T x0 x1 x2 := by
  unfold out
  rw [View.read_writes_eq_canon _ _ _ (cover c i arg3 harg3 arg4 harg4 arg5 harg5 arg6 harg6 T x0 x1 x2)]
  unfold kernelRun
  dsimp only
  sl_unfold_words
  rw [View.canon_unit_zero hz4]
  simp only [View.readAt_eq_ld, Memref.IsWhole.read_unread, View.ld_unit_zero (S := S1x128x512x8) hz4, View.ld_unit_zero (S := S1x1x512x8) hz4, View.read_whole]
  unfold Body.stored
  rw [ld_word T ![0] inb_S9_S1_0 _ 0 rfl, ld_word T ![1] inb_S9_S1_1 _ 1 rfl, ld_word T ![2] inb_S9_S1_2 _ 2 rfl,
    ld_word T ![3] inb_S9_S1_3 _ 3 rfl, ld_word T ![4] inb_S9_S1_4 _ 4 rfl, ld_word T ![5] inb_S9_S1_5 _ 5 rfl,
    ld_word T ![6] inb_S9_S1_6 _ 6 rfl, ld_word T ![7] inb_S9_S1_7 _ 7 rfl, ld_word T ![8] inb_S9_S1_8 _ 8 rfl]
end Cert.KernelIdeal.Frame
end
-- ==== Proof.Spec.lean ====
/-
  Non-maximum suppression with a 3×3 structuring element, as one function of the image and the element.

  The image is x[b, h, w, c] over 16 × 512 × 512 × 8. Put a ring of −∞ one pixel wide around every 512 × 512 plane
  (`ringed`: plane coordinates H, W run over 0 … 513, the image sits at 1 … 512). The tap of offset (di, dj), di, dj ∈ {0,1,2},
  at pixel (h, w) is the ringed plane at (h + di, w + dj) — the pixel's neighbour at (h + di − 1, w + dj − 1), or −∞ outside
  the image — when the structuring element is set at (di, dj), and −∞ otherwise. The neighbourhood maximum `nbrMax` is the
  maximum of the nine taps, folded from −∞ in row-major order of (di, dj). A pixel survives when it is strictly greater than
  its neighbourhood maximum; every other pixel becomes 0.
-/
import Idealize.ShloMosaic.PureOps.Ideal
import Idealize.ShloMosaic.Lib.ValueIdx

noncomputable section

namespace Nms

open Idealize.ShloMosaic Idealize.ShloMosaic.ValueIdx

/-- The image's shape and the structuring element's. -/
abbrev SX : Shape := ⟨4, ![16, 512, 512, 8]⟩
abbrev SM : Shape := ⟨2, ![3, 3]⟩

/-- A plane of the image with a ring of −∞ around it: the image at (H − 1, W − 1) for 1 ≤ H, W ≤ 512, else −∞. -/
def ringed (x : SX.Idx → EReal) (b : Fin 16) (H W : ℕ) (c : Fin 8) : EReal :=
  if h : (1 ≤ H ∧ H ≤ 512) ∧ (1 ≤ W ∧ W ≤ 512) then
    x (ix4 b ⟨H - 1, by omega⟩ ⟨W - 1, by omega⟩ c)
  else ⊥

/-- The tap of offset (di, dj) at pixel (h, w): the ringed plane there when the element is set, −∞ when it is not. -/
def tap (x : SX.Idx → EReal) (mask : SM.Idx → BitVec 1) (b : Fin 16) (h w : ℕ) (c : Fin 8) (di dj : Fin 3) : EReal :=
  if mask (ix2 di dj) = 1#1 then ringed x b (h + di.val) (w + dj.val) c else ⊥

/-- The neighbourhood maximum: the nine taps, folded from −∞ in row-major order. -/
def nbrMax (x : SX.Idx → EReal) (mask : SM.Idx → BitVec 1) (b : Fin 16) (h w : ℕ) (c : Fin 8) : EReal :=
  max (max (max (max (max (max (max (max (max ⊥
    (tap x mask b h w c 0 0)) (tap x mask b h w c 0 1)) (tap x mask b h w c 0 2))
    (tap x mask b h w c 1 0)) (tap x mask b h w c 1 1)) (tap x mask b h w c 1 2))
    (tap x mask b h w c 2 0)) (tap x mask b h w c 2 1)) (tap x mask b h w c 2 2)

/-- The suppressed image: a pixel strictly above its neighbourhood maximum is kept, every other pixel is 0. -/
def G (x : SX.Idx → EReal) (mask : SM.Idx → BitVec 1) : SX.Idx → EReal := fun i =>
  if nbrMax x mask (i 0) (i 1).val (i 2).val (i 3) < x i then x i else 0

end Nms

end
-- ==== Proof.StoredLayout.lean ====
/-
  Layout operations of the body read at an index written by coordinates: dropping and adding unit axes, a slice along the
  row axis of a rank-3 array, and two arrays joined along the row axis or along the column axis, read in the first piece or
  in the second.
-/
import Idealize.ShloMosaic.Lib.ValueLayout

namespace Cert.KernelIdeal.Body

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Two rank-3 arrays joined along axis 0, read at a row of the first. -/
theorem concat3_axis0_left {n1 n2 n m k : Nat} (x₁ : (⟨3, ![n1, m, k]⟩ : Shape).Idx → α)
    (x₂ : (⟨3, ![n2, m, k]⟩ : Shape).Idx → α)
    (h : Shape.Concatenates [(⟨3, ![n1, m, k]⟩ : Shape), ⟨3, ![n2, m, k]⟩] ⟨3, ![n, m, k]⟩ 0)
    (p : Fin n) (q : Fin m) (c : Fin k) (p' : Fin n1) (hp : p'.val = p.val) :
    concatenate (⟨3, ![n, m, k]⟩ : Shape) 0 [⟨⟨3, ![n1, m, k]⟩, x₁⟩, ⟨⟨3, ![n2, m, k]⟩, x₂⟩] h (ix3 p q c)
      = x₁ (ix3 p' q c) :=
  concatenate_pair_apply_left (0 : Fin 3) x₁ x₂ h (ix3 p q c) rfl (ix3 p' q c) (fun b => by
    match b with
    | ⟨0, _⟩ => exact hp
    | ⟨1, _⟩ => rfl
    | ⟨2, _⟩ => rfl)

/-- Two rank-3 arrays joined along axis 0, read at a row of the second. -/
theorem concat3_axis0_right {n1 n2 n m k : Nat} (x₁ : (⟨3, ![n1, m, k]⟩ : Shape).Idx → α)
    (x₂ : (⟨3, ![n2, m, k]⟩ : Shape).Idx → α)
    (h : Shape.Concatenates [(⟨3, ![n1, m, k]⟩ : Shape), ⟨3, ![n2, m, k]⟩] ⟨3, ![n, m, k]⟩ 0)
    (p : Fin n) (q : Fin m) (c : Fin k) (p' : Fin n2) (hp : p'.val + n1 = p.val) :
    concatenate (⟨3, ![n, m, k]⟩ : Shape) 0 [⟨⟨3, ![n1, m, k]⟩, x₁⟩, ⟨⟨3, ![n2, m, k]⟩, x₂⟩] h (ix3 p q c)
      = x₂ (ix3 p' q c) :=
by
  refine concatenate_pair_apply_right (0 : Fin 3) x₁ x₂ h (ix3 p q c) rfl rfl (ix3 p' q c) (fun b hb => ?_) ?_
  · match b, hb with
    | ⟨0, _⟩, hb => exact absurd rfl hb
    | ⟨1, _⟩, _ => rfl
    | ⟨2, _⟩, _ => rfl
  · exact hp

/-- Two rank-3 arrays joined along axis 1, read at a column of the first. -/
theorem concat3_axis1_left {m1 m2 m n k : Nat} (x₁ : (⟨3, ![n, m1, k]⟩ : Shape).Idx → α)
    (x₂ : (⟨3, ![n, m2, k]⟩ : Shape).Idx → α)
    (h : Shape.Concatenates [(⟨3, ![n, m1, k]⟩ : Shape), ⟨3, ![n, m2, k]⟩] ⟨3, ![n, m, k]⟩ 1)
    (p : Fin n) (q : Fin m) (c : Fin k) (q' : Fin m1) (hq : q'.val = q.val) :
    concatenate (⟨3, ![n, m, k]⟩ : Shape) 1 [⟨⟨3, ![n, m1, k]⟩, x₁⟩, ⟨⟨3, ![n, m2, k]⟩, x₂⟩] h (ix3 p q c)
      = x₁ (ix3 p q' c) :=
  concatenate_pair_apply_left (1 : Fin 3) x₁ x₂ h (ix3 p q c) rfl (ix3 p q' c) (fun b => by
    match b with
    | ⟨0, _⟩ => rfl
    | ⟨1, _⟩ => exact hq
    | ⟨2, _⟩ => rfl)

/-- Two rank-3 arrays joined along axis 1, read at a column of the second. -/
theorem concat3_axis1_right {m1 m2 m n k : Nat} (x₁ : (⟨3, ![n, m1, k]⟩ : Shape).Idx → α)
    (x₂ : (⟨3, ![n, m2, k]⟩ : Shape).Idx → α)
    (h : Shape.Concatenates [(⟨3, ![n, m1, k]⟩ : Shape), ⟨3, ![n, m2, k]⟩] ⟨3, ![n, m, k]⟩ 1)
    (p : Fin n) (q : Fin m) (c : Fin k) (q' : Fin m2) (hq : q'.val + m1 = q.val) :
    concatenate (⟨3, ![n, m, k]⟩ : Shape) 1 [⟨⟨3, ![n, m1, k]⟩, x₁⟩, ⟨⟨3, ![n, m2, k]⟩, x₂⟩] h (ix3 p q c)
      = x₂ (ix3 p q' c) :=
by
  refine concatenate_pair_apply_right (1 : Fin 3) x₁ x₂ h (ix3 p q c) rfl rfl (ix3 p q' c) (fun b hb => ?_) ?_
  · match b, hb with
    | ⟨0, _⟩, _ => rfl
    | ⟨1, _⟩, hb => exact absurd rfl hb
    | ⟨2, _⟩, _ => rfl
  · exact hq

end Cert.KernelIdeal.Body
-- ==== Proof.StoredWords.lean ====
/-
  Scalar facts the body's arithmetic rests on, at the extended reals: the word 0xFF800000 is −∞ and the zero word is 0;
  a select between two whole arrays on one bit reads through an index; a table word that is a zero-extended bit is
  nonzero exactly when the bit is set; the grid's row-tile coordinate compared with 0 and with 3; and the final strict
  comparison followed by a select.
-/
import Idealize.ShloMosaic.PureOps.Ideal.Laws
import Idealize.ShloMosaic.Lib.ValueIdx

noncomputable section

namespace Cert.KernelIdeal.Body

open Idealize.ShloMosaic Idealize.ShloMosaic.ValueIdx

/-- The word 0xFF800000 denotes −∞. -/
theorem ofBits_negInf : (Scalar.ofBits (F := Ideal) .f32 0xFF800000#32 : EReal) = ⊥ := by
  show Ideal.ofBits .f32 0xFF800000#32 = ⊥
  simp [Ideal.ofBits, Ideal.ieee]

/-- The zero word denotes 0. -/
theorem ofBits_zero : (Scalar.ofBits (F := Ideal) .f32 0x00000000#32 : EReal) = 0 :=
  Ideal.ofBits_zero_f32

/-- A select between two whole arrays on one bit, read at an index, selects between the two elements. -/
theorem select_vec_apply {s : Shape} {β : Type} (b : BitVec 1) (u v : s.Idx → β) (j : s.Idx) :
    (Scalar.select b u v) j = Scalar.select b (u j) (v j) := by
  unfold Scalar.select
  split <;> rfl

/-- A one-bit word zero-extended to 32 bits differs from zero exactly when the bit is set. -/
theorem cmpi_ne_setWidth (m : BitVec 1) : Scalar.cmpi .ne (m.setWidth 32) 0#32 = m := by
  rcases BitVec.eq_zero_or_eq_one m with rfl | rfl <;> rfl

/-- A select on "the table's word is nonzero", the word being a zero-extended bit, is the `if` on the bit. -/
theorem select_word {β : Type} (t : BitVec 32) (m : BitVec 1) (ht : t = m.setWidth 32) (u v : β) :
    Scalar.select (Scalar.cmpi .ne t 0#32) u v = if m = 1#1 then u else v := by
  rw [ht, cmpi_ne_setWidth]
  rfl

/-- A row-tile coordinate below 4 compared with 0. -/
theorem cmpi_eq_zero (n : Nat) (hn : n < 4) :
    Scalar.cmpi .eq (BitVec.ofNat 32 n) 0#32 = if n = 0 then 1#1 else 0#1 := by
  interval_cases n <;> rfl

/-- A row-tile coordinate below 4 compared with 3. -/
theorem cmpi_eq_three (n : Nat) (hn : n < 4) :
    Scalar.cmpi .eq (BitVec.ofNat 32 n) 3#32 = if n = 3 then 1#1 else 0#1 := by
  interval_cases n <;> rfl

/-- "Strictly greater" as a bit, then a select on that bit, is the `if` on the strict order. -/
theorem select_ogt (a b z : EReal) :
    Scalar.select (FloatOps.cmpf (F := Ideal) (φ := .f32) .ogt a b) a z = if b < a then a else z := by
  show Scalar.select (Ideal.cmp .ogt a b) a z = _
  unfold Ideal.cmp Scalar.select
  by_cases h : b < a
  · simp [h]
  · simp [h]

end Cert.KernelIdeal.Body

end
-- ==== Proof.StoredSources.lean ====
/-
  The three row sources of the body read at an index, and each of them with its two columns of −∞.

  With R the image row of block row r (R = 128·it + r): the block shifted down by one row reads image row R − 1, the block
  itself image row R, the block shifted up by one row image row R + 1, each of them −∞ where that row is outside the image.
  In the ringed plane's coordinates (the image at 1 … 512) these are rows R + 0, R + 1 and R + 2. Padding a source with one
  column of −∞ on each side of its 512 columns gives the ringed plane's row, columns 0 … 513.
-/
import proofs.«137438_j9577777070544_1_alg».proof.Proof.Stored
import proofs.«137438_j9577777070544_1_alg».proof.Proof.Spec
import proofs.«137438_j9577777070544_1_alg».proof.Proof.StoredLayout
import proofs.«137438_j9577777070544_1_alg».proof.Proof.StoredWords

noncomputable section

namespace Cert.KernelIdeal.Body

open Idealize.ShloMosaic Idealize.SL.Sem Idealize.ShloMosaic.ValueIdx Cert.KernelIdeal Cert.KernelIdeal.Gen

/-! ## A row of the ringed plane over the image's columns -/

/-- Row `H` of the ringed plane of `b` over the image's 512 columns: image row `H − 1` for 1 ≤ H ≤ 512, −∞ otherwise. -/
def rowOf (x : Nms.SX.Idx → EReal) (b : Fin 16) (H : ℕ) (w : Fin 512) (c : Fin 8) : EReal :=
  if h : 1 ≤ H ∧ H ≤ 512 then x (ix4 b ⟨H - 1, by omega⟩ w c) else ⊥

/-- Inside the image it is the image's row. -/
theorem rowOf_inside (x : Nms.SX.Idx → EReal) (b : Fin 16) (H : ℕ) (w : Fin 512) (c : Fin 8) (R' : Fin 512)
    (hR' : R'.val + 1 = H) : rowOf x b H w c = x (ix4 b R' w c) := by
  subst hR'
  unfold rowOf
  rw [dif_pos ⟨by omega, by omega⟩]
  rfl

/-- Outside the image it is −∞. -/
theorem rowOf_outside (x : Nms.SX.Idx → EReal) (b : Fin 16) (H : ℕ) (w : Fin 512) (c : Fin 8)
    (hH : H = 0 ∨ 512 < H) : rowOf x b H w c = ⊥ := by
  unfold rowOf
  rw [dif_neg (by omega)]

/-! ## The padding -/

/-- A source with one column of −∞ on each side: at ringed column `W` it is the source's column `W − 1` for
    1 ≤ W ≤ 512 and −∞ at `W = 0` and `W = 513`. -/
theorem pay7_apply (v : FVec Ideal S128x512x8 .f32) (r : Fin 128) (W : Fin 514) (c : Fin 8) :
    k0_pay7 (F := Ideal) v (ix3 r W c)
      = if h : 1 ≤ W.val ∧ W.val ≤ 512 then v (ix3 r ⟨W.val - 1, by omega⟩ c) else ⊥ := by
  unfold k0_pay7
  by_cases hW : W.val ≤ 512
  · refine (concat3_axis1_left (m1 := 513) (m2 := 1) _ _ _ r W c ⟨W.val, by omega⟩ rfl).trans ?_
    by_cases hW0 : W.val = 0
    · rw [dif_neg (by omega)]
      refine (concat3_axis1_left (m1 := 1) (m2 := 512) _ _ _ r ⟨W.val, _⟩ c ⟨0, by omega⟩ (by show 0 = W.val; omega)).trans ?_
      exact ofBits_negInf
    · rw [dif_pos ⟨by omega, hW⟩]
      exact concat3_axis1_right (m1 := 1) (m2 := 512) _ _ _ r ⟨W.val, _⟩ c ⟨W.val - 1, by omega⟩ (by show W.val - 1 + 1 = W.val; omega)
  · rw [dif_neg (by omega)]
    refine (concat3_axis1_right (m1 := 513) (m2 := 1) _ _ _ r W c ⟨0, by omega⟩ (by show 0 + 513 = W.val; omega)).trans ?_
    exact ofBits_negInf

/-- A source whose row `r` is row `H` of the ringed plane over the image's columns, padded, is that row of the ringed
    plane over all its 514 columns. -/
theorem padded_ringed (v : FVec Ideal S128x512x8 .f32) (x : Nms.SX.Idx → EReal) (b : Fin 16) (H : ℕ) (r : Fin 128)
    (c : Fin 8) (hv : ∀ w : Fin 512, v (ix3 r w c) = rowOf x b H w c) (W : Fin 514) :
    k0_pay7 (F := Ideal) v (ix3 r W c) = Nms.ringed x b H W.val c := by
  rw [pay7_apply]
  unfold Nms.ringed
  by_cases hW : 1 ≤ W.val ∧ W.val ≤ 512
  · rw [dif_pos hW, hv]
    unfold rowOf
    by_cases hH : 1 ≤ H ∧ H ≤ 512
    · rw [dif_pos hH, dif_pos ⟨hH, hW⟩]
    · rw [dif_neg hH, dif_neg (fun h => hH h.1)]
  · rw [dif_neg hW, dif_neg (fun h => hW h.2)]

/-! ## The block -/

/-- The block without its unit axis reads the block. -/
theorem pay2_apply (v2 : Vec Ideal S1x128x512x8 .f32) (r : Fin 128) (w : Fin 512) (c : Fin 8) :
    k0_pay2 (F := Ideal) v2 (ix3 r w c) = v2 (ix4 0 r w c) :=
  shapeCast_1abc_abc_apply v2 _ r w c

section Sources

variable (x : Nms.SX.Idx → EReal) (i : grid0.Coords) (ib : Fin 16) (it : Fin 4) (hit : (i 1).val = it.val)
  (x0 : Vec Ideal S1x128x512x8 .f32) (xt xb : Vec Ideal S1x1x512x8 .f32)
  (h0 : ∀ (r : Fin 128) (R : Fin 512) (w : Fin 512) (c : Fin 8), R.val = 128 * it.val + r.val →
    x0 (ix4 0 r w c) = x (ix4 ib R w c))

include h0 in
/-- The block itself: ringed row R + 1. -/
theorem block_row (r : Fin 128) (R : Fin 512) (hR : R.val = 128 * it.val + r.val) (w : Fin 512) (c : Fin 8) :
    k0_pay2 (F := Ideal) x0 (ix3 r w c) = rowOf x ib (R.val + 1) w c :=
  (pay2_apply x0 r w c).trans ((h0 r R w c hR).trans (rowOf_inside x ib _ w c R rfl).symm)

/-- The block shifted down by one row: the row above it (−∞ at the first row tile) on top of its first 127 rows. -/
def rowsAbove (i : grid0.Coords) (v2 : Vec Ideal S1x128x512x8 .f32) (v4 : Vec Ideal S1x1x512x8 .f32) :
    FVec Ideal S128x512x8 .f32 :=
  concatenate S128x512x8 0
    [⟨S1x512x8, shapeCast S1x512x8
        (Scalar.select (Scalar.cmpi .eq (BitVec.ofNat 32 (i 1).val) 0#32)
          (broadcast S512x8 (Scalar.ofBits (F := Ideal) .f32 0xFF800000#32))
          (shapeCast S512x8 v4 shapeCasts_S1x1x512x8_S512x8)) shapeCasts_S512x8_S1x512x8⟩,
     ⟨S127x512x8, extractStridedSlice S127x512x8 ![0, 0, 0] (k0_pay2 v2) slices_S128x512x8_o0_0_0_S127x512x8⟩]
    concatenates_S1x512x8_S127x512x8_S128x512x8_d0

/-- The first padded source is the padding of the block shifted down. -/
theorem pay4_eq (i : grid0.Coords) (v2 : Vec Ideal S1x128x512x8 .f32) (v4 : Vec Ideal S1x1x512x8 .f32) :
    k0_pay4 (F := Ideal) i v2 v4 = k0_pay7 (F := Ideal) (rowsAbove i v2 v4) := rfl

include hit h0 in
/-- The block shifted down: ringed row R + 0. -/
theorem above_row
    (ht : it.val ≠ 0 → ∀ (R : Fin 512) (w : Fin 512) (c : Fin 8), R.val + 1 = 128 * it.val →
      xt (ix4 0 0 w c) = x (ix4 ib R w c))
    (r : Fin 128) (R : Fin 512) (hR : R.val = 128 * it.val + r.val) (w : Fin 512) (c : Fin 8) :
    rowsAbove i x0 xt (ix3 r w c) = rowOf x ib (R.val + 0) w c := by
  unfold rowsAbove
  by_cases hr : r.val = 0
  · refine (concat3_axis0_left (n1 := 1) (n2 := 127) _ _ _ r w c ⟨0, by omega⟩ (by show 0 = r.val; omega)).trans ?_
    refine (shapeCast_ab_1ab_apply _ _ _ w c).trans ?_
    refine (select_vec_apply _ _ _ _).trans ?_
    rw [hit, cmpi_eq_zero it.val it.isLt]
    by_cases hit0 : it.val = 0
    · rw [if_pos hit0, select_one]
      exact ofBits_negInf.trans (rowOf_outside x ib _ w c (Or.inl (by omega))).symm
    · rw [if_neg hit0, select_zero]
      refine (shapeCast_11ab_ab_apply _ _ w c).trans ?_
      refine (ht hit0 ⟨R.val - 1, by omega⟩ w c (by show R.val - 1 + 1 = 128 * it.val; omega)).trans ?_
      exact (rowOf_inside x ib _ w c ⟨R.val - 1, by omega⟩ (by show R.val - 1 + 1 = R.val + 0; omega)).symm
  · refine (concat3_axis0_right (n1 := 1) (n2 := 127) _ _ _ r w c ⟨r.val - 1, by omega⟩ (by show r.val - 1 + 1 = r.val; omega)).trans ?_
    refine (slice3_axis0_apply (n0 := 128) (m := 127) 0 _ _ ⟨r.val - 1, by omega⟩ w c ⟨r.val - 1, by omega⟩
      (by show r.val - 1 = 0 + (r.val - 1); omega)).trans ?_
    refine (pay2_apply x0 _ w c).trans ?_
    refine (h0 ⟨r.val - 1, by omega⟩ ⟨R.val - 1, by omega⟩ w c
      (by show R.val - 1 = 128 * it.val + (r.val - 1); omega)).trans ?_
    exact (rowOf_inside x ib _ w c ⟨R.val - 1, by omega⟩ (by show R.val - 1 + 1 = R.val + 0; omega)).symm

include hit h0 in
/-- The block shifted up by one row, the row below it (−∞ at the last row tile) at the bottom: ringed row R + 2. -/
theorem below_row
    (hb : it.val ≠ 3 → ∀ (R : Fin 512) (w : Fin 512) (c : Fin 8), R.val = 128 * it.val + 128 →
      xb (ix4 0 0 w c) = x (ix4 ib R w c))
    (r : Fin 128) (R : Fin 512) (hR : R.val = 128 * it.val + r.val) (w : Fin 512) (c : Fin 8) :
    k0_pay3 (F := Ideal) i x0 xb (ix3 r w c) = rowOf x ib (R.val + 2) w c := by
  unfold k0_pay3
  have hit4 := it.isLt
  by_cases hr : r.val < 127
  · refine (concat3_axis0_left (n1 := 127) (n2 := 1) _ _ _ r w c ⟨r.val, hr⟩ rfl).trans ?_
    refine (slice3_axis0_apply (n0 := 128) (m := 127) 1 _ _ ⟨r.val, hr⟩ w c ⟨r.val + 1, by omega⟩
      (by show r.val + 1 = 1 + r.val; omega)).trans ?_
    refine (pay2_apply x0 _ w c).trans ?_
    refine (h0 ⟨r.val + 1, by omega⟩ ⟨R.val + 1, by omega⟩ w c
      (by show R.val + 1 = 128 * it.val + (r.val + 1); omega)).trans ?_
    exact (rowOf_inside x ib _ w c ⟨R.val + 1, by omega⟩ rfl).symm
  · refine (concat3_axis0_right (n1 := 127) (n2 := 1) _ _ _ r w c ⟨0, by omega⟩ (by show 0 + 127 = r.val; omega)).trans ?_
    refine (shapeCast_ab_1ab_apply _ _ _ w c).trans ?_
    refine (select_vec_apply _ _ _ _).trans ?_
    rw [hit, cmpi_eq_three it.val it.isLt]
    by_cases hit3 : it.val = 3
    · rw [if_pos hit3, select_one]
      exact ofBits_negInf.trans (rowOf_outside x ib _ w c (Or.inr (by omega))).symm
    · rw [if_neg hit3, select_zero]
      refine (shapeCast_11ab_ab_apply _ _ w c).trans ?_
      refine (hb hit3 ⟨R.val + 1, by omega⟩ w c (by show R.val + 1 = 128 * it.val + 128; omega)).trans ?_
      exact (rowOf_inside x ib _ w c ⟨R.val + 1, by omega⟩ rfl).symm

end Sources

end Cert.KernelIdeal.Body

end
-- ==== Proof.StoredIsG.lean ====
/-
  What one grid point stores, read at an index, is the suppressed image there.

  Each of the nine selected column shifts of the three padded sources is a tap of the specification; the body folds them
  from −∞ in row-major order of (di, dj), which is the neighbourhood maximum; the final strict comparison against the
  block and the select of the block or 0 is the specification's `G`.
-/
import proofs.«137438_j9577777070544_1_alg».proof.Proof.StoredSources

noncomputable section

namespace Cert.KernelIdeal.Body

open Idealize.ShloMosaic Idealize.SL.Sem Idealize.ShloMosaic.ValueIdx Cert.KernelIdeal Cert.KernelIdeal.Gen

/-! ## A tap -/

/-- A padded source shifted by `o` columns and selected against −∞ by a word of the table. -/
def sel (t : BitVec 32) (o : ℕ) (P : FVec Ideal S128x514x8 .f32) (h : S128x514x8.Slices ![0, o, 0] S128x512x8) :
    FVec Ideal S128x512x8 .f32 :=
  Scalar.select (Scalar.cmpi .ne t 0#32) (extractStridedSlice S128x512x8 ![0, o, 0] P h)
    (broadcast S128x512x8 (Scalar.ofBits (F := Ideal) .f32 0xFF800000#32))

/-- When the padded source's row `r` is row `hh + di` of the ringed plane and the word is the element's bit at
    (di, dj), the selected shift by `dj` columns is the tap of offset (di, dj) at pixel (hh, w). -/
theorem sel_tap (x : Nms.SX.Idx → EReal) (mask : Nms.SM.Idx → BitVec 1) (b : Fin 16) (hh : ℕ) (r : Fin 128) (c : Fin 8)
    (P : FVec Ideal S128x514x8 .f32) (di dj : Fin 3)
    (hP : ∀ W : Fin 514, P (ix3 r W c) = Nms.ringed x b (hh + di.val) W.val c)
    (t : BitVec 32) (ht : t = (mask (ix2 di dj)).setWidth 32)
    (o : ℕ) (ho : o = dj.val) (h : S128x514x8.Slices ![0, o, 0] S128x512x8) (w : Fin 512) :
    sel t o P h (ix3 r w c) = Nms.tap x mask b hh w.val c di dj := by
  have hdj := dj.isLt
  unfold sel
  refine (select_vec_apply _ _ _ _).trans ?_
  refine (select_word t _ ht _ _).trans ?_
  unfold Nms.tap
  refine if_congr Iff.rfl ?_ ?_
  · exact (slice3_axis1_apply o P h r w c ⟨w.val + dj.val, by omega⟩
      (by show w.val + dj.val = o + w.val; omega)).trans (hP _)
  · exact ofBits_negInf

/-! ## The stored value as a fold of selected shifts -/

/-- The first partial maximum. -/
theorem pay5_at (i : grid0.Coords) (v2 : Vec Ideal S1x128x512x8 .f32) (v4 : Vec Ideal S1x1x512x8 .f32) (t : BitVec 32)
    (j : S128x512x8.Idx) :
    k0_pay5 (F := Ideal) i v2 v4 t j
      = max (Scalar.ofBits (F := Ideal) .f32 0xFF800000#32 : EReal)
          (sel t 0 (k0_pay4 (F := Ideal) i v2 v4) slices_S128x514x8_o0_0_0_S128x512x8 j) := rfl

/-- The second selected shift. -/
theorem pay6_at (i : grid0.Coords) (v2 : Vec Ideal S1x128x512x8 .f32) (v4 : Vec Ideal S1x1x512x8 .f32) (t : BitVec 32)
    (j : S128x512x8.Idx) :
    k0_pay6 (F := Ideal) i v2 v4 t j
      = sel t 1 (k0_pay4 (F := Ideal) i v2 v4) slices_S128x514x8_o0_1_0_S128x512x8 j := rfl

/-- The partial maximum after seven taps. -/
theorem pay8_at (v3 v17 : FVec Ideal S128x512x8 .f32) (v22 : FVec Ideal S128x514x8 .f32)
    (v28 v33 : FVec Ideal S128x512x8 .f32) (t2 t3 t4 t5 t6 : BitVec 32) (j : S128x512x8.Idx) :
    k0_pay8 (F := Ideal) v3 v17 v22 v28 v33 t2 t3 t4 t5 t6 j
      = max (max (max (max (max (max (v28 j : EReal) (v33 j))
          (sel t2 2 v22 slices_S128x514x8_o0_2_0_S128x512x8 j))
          (sel t3 0 (k0_pay7 (F := Ideal) v3) slices_S128x514x8_o0_0_0_S128x512x8 j))
          (sel t4 1 (k0_pay7 (F := Ideal) v3) slices_S128x514x8_o0_1_0_S128x512x8 j))
          (sel t5 2 (k0_pay7 (F := Ideal) v3) slices_S128x514x8_o0_2_0_S128x512x8 j))
          (sel t6 0 (k0_pay7 (F := Ideal) v17) slices_S128x514x8_o0_0_0_S128x512x8 j) := rfl

/-- The stored block at an index: the block against the maximum of the partial maximum and the last two taps. -/
theorem stored_at (i : grid0.Coords) (tbl : Vec Ideal S9 .i32) (x0 : Vec Ideal S1x128x512x8 .f32)
    (xt xb : Vec Ideal S1x1x512x8 .f32) (r : Fin 128) (w : Fin 512) (c : Fin 8) :
    stored (F := Ideal) i tbl x0 xt xb (ix4 0 r w c)
      = Scalar.select
          (FloatOps.cmpf (F := Ideal) (φ := .f32) .ogt (k0_pay2 (F := Ideal) x0 (ix3 r w c))
            (max (max
              (k0_pay8 (F := Ideal) (k0_pay2 x0) (k0_pay3 i x0 xb) (k0_pay4 i x0 xt) (k0_pay5 i x0 xt (tbl (ix1 0)))
                (k0_pay6 i x0 xt (tbl (ix1 1))) (tbl (ix1 2)) (tbl (ix1 3)) (tbl (ix1 4)) (tbl (ix1 5)) (tbl (ix1 6))
                (ix3 r w c) : EReal)
              (sel (tbl (ix1 7)) 1 (k0_pay7 (F := Ideal) (k0_pay3 i x0 xb)) slices_S128x514x8_o0_1_0_S128x512x8
                (ix3 r w c)))
              (sel (tbl (ix1 8)) 2 (k0_pay7 (F := Ideal) (k0_pay3 i x0 xb)) slices_S128x514x8_o0_2_0_S128x512x8
                (ix3 r w c))))
          (k0_pay2 (F := Ideal) x0 (ix3 r w c)) (Scalar.ofBits (F := Ideal) .f32 0x00000000#32 : EReal) := by
  unfold stored k0_pay1
  exact (shapeCast_abc_1abc_apply _ _ 0 r w c).trans rfl

/-! ## The theorem -/

theorem stored_eq (x : Nms.SX.Idx → EReal) (mask : Nms.SM.Idx → BitVec 1)
    (i : Cert.KernelIdeal.grid0.Coords) (ib : Fin 16) (it : Fin 4) (hib : (i 0).val = ib.val) (hit : (i 1).val = it.val)
    (tbl : Vec Ideal Cert.KernelIdeal.S9 .i32) (x0 : Vec Ideal Cert.KernelIdeal.S1x128x512x8 .f32) (xt xb : Vec Ideal Cert.KernelIdeal.S1x1x512x8 .f32)
    (h0 : ∀ (r : Fin 128) (R : Fin 512) (w : Fin 512) (c : Fin 8), R.val = 128 * it.val + r.val → x0 (ix4 0 r w c) = x (ix4 ib R w c))
    (ht : it.val ≠ 0 → ∀ (R : Fin 512) (w : Fin 512) (c : Fin 8), R.val + 1 = 128 * it.val → xt (ix4 0 0 w c) = x (ix4 ib R w c))
    (hb : it.val ≠ 3 → ∀ (R : Fin 512) (w : Fin 512) (c : Fin 8), R.val = 128 * it.val + 128 → xb (ix4 0 0 w c) = x (ix4 ib R w c))
    (htbl : ∀ (di dj : Fin 3) (k : Fin 9), k.val = 3 * di.val + dj.val → tbl (ix1 k) = (mask (ix2 di dj)).setWidth 32)
    (r : Fin 128) (R : Fin 512) (hR : R.val = 128 * it.val + r.val) (w : Fin 512) (c : Fin 8) :
    Cert.KernelIdeal.Body.stored (F := Ideal) i tbl x0 xt xb (ix4 0 r w c) = Nms.G x mask (ix4 ib R w c) := by
  -- the block at the pixel, and the three padded sources as rows R + 0, R + 1, R + 2 of the ringed plane
  have hx : k0_pay2 (F := Ideal) x0 (ix3 r w c) = x (ix4 ib R w c) := (pay2_apply x0 r w c).trans (h0 r R w c hR)
  have hP0 : ∀ W : Fin 514, k0_pay7 (F := Ideal) (rowsAbove i x0 xt) (ix3 r W c)
      = Nms.ringed x ib (R.val + (0 : Fin 3).val) W.val c :=
    padded_ringed _ x ib _ r c (fun w' => above_row x i ib it hit x0 xt h0 ht r R hR w' c)
  have hP1 : ∀ W : Fin 514, k0_pay7 (F := Ideal) (k0_pay2 (F := Ideal) x0) (ix3 r W c)
      = Nms.ringed x ib (R.val + (1 : Fin 3).val) W.val c :=
    padded_ringed _ x ib _ r c (fun w' => block_row x ib it x0 h0 r R hR w' c)
  have hP2 : ∀ W : Fin 514, k0_pay7 (F := Ideal) (k0_pay3 (F := Ideal) i x0 xb) (ix3 r W c)
      = Nms.ringed x ib (R.val + (2 : Fin 3).val) W.val c :=
    padded_ringed _ x ib _ r c (fun w' => below_row x i ib it hit x0 xb h0 hb r R hR w' c)
  -- the nine taps
  have t00 := sel_tap x mask ib R.val r c _ 0 0 hP0 (tbl (ix1 0)) (htbl 0 0 0 rfl) 0 rfl
    slices_S128x514x8_o0_0_0_S128x512x8 w
  have t01 := sel_tap x mask ib R.val r c _ 0 1 hP0 (tbl (ix1 1)) (htbl 0 1 1 rfl) 1 rfl
    slices_S128x514x8_o0_1_0_S128x512x8 w
  have t02 := sel_tap x mask ib R.val r c _ 0 2 hP0 (tbl (ix1 2)) (htbl 0 2 2 rfl) 2 rfl
    slices_S128x514x8_o0_2_0_S128x512x8 w
  have t10 := sel_tap x mask ib R.val r c _ 1 0 hP1 (tbl (ix1 3)) (htbl 1 0 3 rfl) 0 rfl
    slices_S128x514x8_o0_0_0_S128x512x8 w
  have t11 := sel_tap x mask ib R.val r c _ 1 1 hP1 (tbl (ix1 4)) (htbl 1 1 4 rfl) 1 rfl
    slices_S128x514x8_o0_1_0_S128x512x8 w
  have t12 := sel_tap x mask ib R.val r c _ 1 2 hP1 (tbl (ix1 5)) (htbl 1 2 5 rfl) 2 rfl
    slices_S128x514x8_o0_2_0_S128x512x8 w
  have t20 := sel_tap x mask ib R.val r c _ 2 0 hP2 (tbl (ix1 6)) (htbl 2 0 6 rfl) 0 rfl
    slices_S128x514x8_o0_0_0_S128x512x8 w
  have t21 := sel_tap x mask ib R.val r c _ 2 1 hP2 (tbl (ix1 7)) (htbl 2 1 7 rfl) 1 rfl
    slices_S128x514x8_o0_1_0_S128x512x8 w
  have t22 := sel_tap x mask ib R.val r c _ 2 2 hP2 (tbl (ix1 8)) (htbl 2 2 8 rfl) 2 rfl
    slices_S128x514x8_o0_2_0_S128x512x8 w
  -- the fold and the final comparison
  refine (stored_at i tbl x0 xt xb r w c).trans ?_
  rw [select_ogt, ofBits_zero, hx, pay8_at, pay5_at, pay6_at, pay4_eq, ofBits_negInf,
    t00, t01, t02, t10, t11, t12, t20, t21, t22]
  rfl

end Cert.KernelIdeal.Body

end
-- ==== Proof.KernelValue.lean ====
/-
  The kernel's value. The table the region finds is the structuring element, reshaped to nine bits and widened to words, so
  word 3·di + dj is the element's bit at (di, dj). At grid point (b, i) the window of the point's rows holds rows
  128·i … 128·i + 127 of plane b, the window above them row 128·i − 1 (when i ≠ 0) and the window below them row 128·i + 128
  (when i ≠ 3): the index maps clamp the row number into the image, and at the two boundary tiles the body replaces the row by −∞.
  So what the point writes back is its block of the suppressed image `Nms.G`; the 64 blocks tile the result, so the result
  array ends as `Nms.G` of the image and the structuring element.
-/
import proofs.«137438_j9577777070544_1_alg».proof.Proof.Frame
import proofs.«137438_j9577777070544_1_alg».proof.Proof.OutIsStored
import proofs.«137438_j9577777070544_1_alg».proof.Proof.StoredIsG
import Idealize.ShloMosaic.Lib.Pipeline.Value
import Idealize.ShloMosaic.Lib.StableHlo.Run

set_option maxRecDepth 16384

noncomputable section

namespace Cert.KernelIdeal.Frame

open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The image and the structuring element as launched. -/
abbrev img (c : Dev nD) : Nms.SX.Idx → EReal := m ((c : Thread nD τ).loc main_arg0)
abbrev elt (c : Dev nD) : Nms.SM.Idx → BitVec 1 := m ((c : Thread nD τ).loc main_arg1)

/-! ## The table -/

/-- The table the region finds: the element reshaped to nine bits, each widened to a word. -/
theorem tbl_eq (c : Dev nD) : (V m c main_v1 : S9.Idx → Elt Ideal .i32)
    = extui 32 (shapeCast S9 (m ((c : Thread nD τ).loc main_arg1)) shapeCasts_S3x3_S9) natLt_1_32 := by
  dsimp only [V, hostOps0]; after_results; rfl

/-- Word 3·di + dj is the element's bit at (di, dj), zero-extended. -/
theorem tbl_word (di dj : Fin 3) (k : Fin 9) (hk : k.val = 3 * di.val + dj.val) :
    tbl m (ix1 k) = (elt m c₀ (ix2 di dj)).setWidth 32 := by
  show (V m c₀ main_v1 : S9.Idx → Elt Ideal .i32) (ix1 k) = _
  rw [tbl_eq]
  show ((shapeCast S9 (m ((c₀ : Thread nD τ).loc main_arg1)) shapeCasts_S3x3_S9) (ix1 k)).setWidth 32 = _
  rw [shapeCast_apply _ _ (ix1 k) (ix2 di dj) (by
    rw [Shape.rowMajor_val_two, Shape.rowMajor_val_one]
    show di.val * 3 + dj.val = k.val
    omega)]

/-! ## The index maps over the grid -/

/-- The four index maps at every grid point: the point's rows and the result's block at (b, i, 0, 0); the row above at row
    128·i − 1 when i ≠ 0, the row below at row 128·i + 128 when i ≠ 3. -/
theorem idx_facts : ∀ t : Fin grid0.N,
    cc0_transform_0 (grid0.coords t) 0 = (grid0.coords t 0).val ∧ cc0_transform_0 (grid0.coords t) 1 = (grid0.coords t 1).val
  ∧ cc0_transform_0 (grid0.coords t) 2 = 0 ∧ cc0_transform_0 (grid0.coords t) 3 = 0
  ∧ cc0_transform_3 (grid0.coords t) 0 = (grid0.coords t 0).val ∧ cc0_transform_3 (grid0.coords t) 1 = (grid0.coords t 1).val
  ∧ cc0_transform_3 (grid0.coords t) 2 = 0 ∧ cc0_transform_3 (grid0.coords t) 3 = 0
  ∧ cc0_transform_1 (grid0.coords t) 0 = (grid0.coords t 0).val
  ∧ ((grid0.coords t 1).val ≠ 0 → cc0_transform_1 (grid0.coords t) 1 + 1 = 128 * (grid0.coords t 1).val)
  ∧ cc0_transform_1 (grid0.coords t) 2 = 0 ∧ cc0_transform_1 (grid0.coords t) 3 = 0
  ∧ cc0_transform_2 (grid0.coords t) 0 = (grid0.coords t 0).val
  ∧ ((grid0.coords t 1).val ≠ 3 → cc0_transform_2 (grid0.coords t) 1 = 128 * (grid0.coords t 1).val + 128)
  ∧ cc0_transform_2 (grid0.coords t) 2 = 0 ∧ cc0_transform_2 (grid0.coords t) 3 = 0
  ∧ (grid0.coords t 0).val < 16 ∧ (grid0.coords t 1).val < 4 := by
  decide +kernel

/-- Every block of the result is some point's. -/
theorem idx_onto : ∀ (q0 : Fin 16) (q1 : Fin 4), ∃ t : Fin grid0.N,
    (grid0.coords t 0).val = q0.val ∧ (grid0.coords t 1).val = q1.val := by
  decide +kernel

/-- The result's block index moves at every step of the grid, so every point writes its block back. -/
theorem moves3 : ∀ t : Fin grid0.N, t.val + 1 = grid0.N ∨ ∃ h : t.val + 1 < grid0.N,
    cc0_transform_3 (grid0.coords ⟨t.val + 1, h⟩) ≠ cc0_transform_3 (grid0.coords t) := by
  decide +kernel

theorem flush3 (t : Fin (cfgA m).N) : ((cfgA m).win 3).flush t = true := by
  unfold Window.flush
  rcases moves3 t with h | ⟨h, hne⟩
  · simp only [Bool.and_eq_true, Bool.or_eq_true, decide_eq_true_eq]
    exact ⟨rfl, Or.inl h⟩
  · simp only [Bool.and_eq_true, Bool.or_eq_true, decide_eq_true_eq]
    exact ⟨rfl, Or.inr ⟨h, hne⟩⟩

/-- Each window's block index at a point is its printed index map at the point's coordinates. -/
theorem hidx0 (t : Fin (cfgA m).N) : ((cfgA m).win 0).index t = cc0_transform_0 (grid0.coords t) := rfl
theorem hidx1 (t : Fin (cfgA m).N) : ((cfgA m).win 1).index t = cc0_transform_1 (grid0.coords t) := rfl
theorem hidx2 (t : Fin (cfgA m).N) : ((cfgA m).win 2).index t = cc0_transform_2 (grid0.coords t) := rfl
theorem hidx3 (t : Fin (cfgA m).N) : ((cfgA m).win 3).index t = cc0_transform_3 (grid0.coords t) := rfl

/-- What the body leaves in the output block at a point, as the pure term. -/
theorem outAt_eq (c : Dev nD) (t : Fin (cfgA m).N) :
    outAt m c t = Body.stored (F := Ideal) (grid0.coords t) (tbl m) (iblk m c 0 t) (iblk m c 1 t) (iblk m c 2 t) :=
  out_eq c (grid0.coords t) (ms0 m t) (hs0 m t) (ms1 m t) (hs1 m t) (ms2 m t) (hs2 m t) (ms3 m t) (hs3 m t) (tbl m)
    (iblk m c 0 t) (iblk m c 1 t) (iblk m c 2 t)

/-! ## The windows' blocks at coordinates -/

theorem iblk0_apply (c : Dev nD) (t : Fin (cfgA m).N) (r : Fin 128) (w : Fin 512) (k : Fin 8) (ib : Fin 16) (R : Fin 512)
    (hib : (grid0.coords t 0).val = ib.val) (hR : R.val = 128 * (grid0.coords t 1).val + r.val) :
    iblk m c 0 t (ix4 0 r w k) = V m c main_arg0 (ix4 ib R w k) := by
  obtain ⟨e0, e1, e2, e3, -⟩ := idx_facts t
  have he : (((cfgA m).win 0).blk t).view.emb (ix4 0 r w k) = (ix4 ib R w k : S16x512x512x8.Idx) := by
    funext a; apply Fin.ext
    match a with
    | ⟨0, _⟩ => show ((cfgA m).win 0).index t (0 : Fin 4) * 1 + 1 * 0 = ib.val; rw [hidx0]; omega
    | ⟨1, _⟩ => show ((cfgA m).win 0).index t (1 : Fin 4) * 128 + 1 * r.val = R.val; rw [hidx0]; omega
    | ⟨2, _⟩ => show ((cfgA m).win 0).index t (2 : Fin 4) * 512 + 1 * w.val = w.val; rw [hidx0]; omega
    | ⟨3, _⟩ => show ((cfgA m).win 0).index t (3 : Fin 4) * 8 + 1 * k.val = k.val; rw [hidx0]; omega
  unfold iblk
  show V m c main_arg0 ((((cfgA m).win 0).blk t).view.emb (ix4 0 r w k)) = _
  rw [he]

theorem iblk1_apply (c : Dev nD) (t : Fin (cfgA m).N) (w : Fin 512) (k : Fin 8) (ib : Fin 16) (R : Fin 512)
    (hib : (grid0.coords t 0).val = ib.val) (h0 : (grid0.coords t 1).val ≠ 0) (hR : R.val + 1 = 128 * (grid0.coords t 1).val) :
    iblk m c 1 t (ix4 0 0 w k) = V m c main_arg0 (ix4 ib R w k) := by
  obtain ⟨-, -, -, -, -, -, -, -, e0, e1, e2, e3, -⟩ := idx_facts t
  have e1' := e1 h0
  have he : (((cfgA m).win 1).blk t).view.emb (ix4 0 0 w k) = (ix4 ib R w k : S16x512x512x8.Idx) := by
    funext a; apply Fin.ext
    match a with
    | ⟨0, _⟩ => show ((cfgA m).win 1).index t (0 : Fin 4) * 1 + 1 * 0 = ib.val; rw [hidx1]; omega
    | ⟨1, _⟩ => show ((cfgA m).win 1).index t (1 : Fin 4) * 1 + 1 * 0 = R.val; rw [hidx1]; omega
    | ⟨2, _⟩ => show ((cfgA m).win 1).index t (2 : Fin 4) * 512 + 1 * w.val = w.val; rw [hidx1]; omega
    | ⟨3, _⟩ => show ((cfgA m).win 1).index t (3 : Fin 4) * 8 + 1 * k.val = k.val; rw [hidx1]; omega
  unfold iblk
  show V m c main_arg0 ((((cfgA m).win 1).blk t).view.emb (ix4 0 0 w k)) = _
  rw [he]

theorem iblk2_apply (c : Dev nD) (t : Fin (cfgA m).N) (w : Fin 512) (k : Fin 8) (ib : Fin 16) (R : Fin 512)
    (hib : (grid0.coords t 0).val = ib.val) (h3 : (grid0.coords t 1).val ≠ 3) (hR : R.val = 128 * (grid0.coords t 1).val + 128) :
    iblk m c 2 t (ix4 0 0 w k) = V m c main_arg0 (ix4 ib R w k) := by
  obtain ⟨-, -, -, -, -, -, -, -, -, -, -, -, e0, e1, e2, e3, -⟩ := idx_facts t
  have e1' := e1 h3
  have he : (((cfgA m).win 2).blk t).view.emb (ix4 0 0 w k) = (ix4 ib R w k : S16x512x512x8.Idx) := by
    funext a; apply Fin.ext
    match a with
    | ⟨0, _⟩ => show ((cfgA m).win 2).index t (0 : Fin 4) * 1 + 1 * 0 = ib.val; rw [hidx2]; omega
    | ⟨1, _⟩ => show ((cfgA m).win 2).index t (1 : Fin 4) * 1 + 1 * 0 = R.val; rw [hidx2]; omega
    | ⟨2, _⟩ => show ((cfgA m).win 2).index t (2 : Fin 4) * 512 + 1 * w.val = w.val; rw [hidx2]; omega
    | ⟨3, _⟩ => show ((cfgA m).win 2).index t (3 : Fin 4) * 8 + 1 * k.val = k.val; rw [hidx2]; omega
  unfold iblk
  show V m c main_arg0 ((((cfgA m).win 2).blk t).view.emb (ix4 0 0 w k)) = _
  rw [he]

/-! ## What a point writes back -/

/-- Point `t` writes back its block of the suppressed image. -/
theorem flushed_eq (c : Dev nD) (t : Fin (cfgA m).N) :
    (dats m 0 c).flushed 3 t = (((cfgA m).win 3).blk t).view.read (Elt Ideal) (Nms.G (V m c main_arg0) (elt m c₀)) := by
  obtain ⟨-, -, -, -, e0, e1, e2, e3, -, -, -, -, -, -, -, -, lb, li⟩ := idx_facts t
  show ((cfgA m).win 3).cut (grid0.coords t) ((dats m 0 c).after 3 t) = _
  rw [after3, outAt_eq]
  refine funext fun (j : S1x128x512x8.Idx) => ?_
  show Body.stored (F := Ideal) (grid0.coords t) (tbl m) (iblk m c 0 t) (iblk m c 1 t) (iblk m c 2 t) j
    = Nms.G (V m c main_arg0) (elt m c₀) ((((cfgA m).win 3).blk t).view.emb j)
  have hj0 : (j 0).val = 0 := by have h1 : (j 0).val < 1 := (j 0).isLt; omega
  have hj : j = ix4 0 (j 1) (j 2) (j 3) := by
    rw [eq_ix4 j]; congr 1; exact Fin.ext hj0
  have hemb : (((cfgA m).win 3).blk t).view.emb j
      = ix4 (⟨(grid0.coords t 0).val, lb⟩ : Fin 16) (⟨128 * (grid0.coords t 1).val + (j 1).val, by have h128 : (j 1).val < 128 := (j 1).isLt; omega⟩ : Fin 512) (j 2) (j 3) := by
    funext a; apply Fin.ext
    match a with
    | ⟨0, _⟩ => show ((cfgA m).win 3).index t (0 : Fin 4) * 1 + 1 * (j 0).val = (grid0.coords t 0).val; rw [hidx3]; omega
    | ⟨1, _⟩ => show ((cfgA m).win 3).index t (1 : Fin 4) * 128 + 1 * (j 1).val = 128 * (grid0.coords t 1).val + (j 1).val; rw [hidx3]; omega
    | ⟨2, _⟩ => show ((cfgA m).win 3).index t (2 : Fin 4) * 512 + 1 * (j 2).val = (j 2).val; rw [hidx3]; omega
    | ⟨3, _⟩ => show ((cfgA m).win 3).index t (3 : Fin 4) * 8 + 1 * (j 3).val = (j 3).val; rw [hidx3]; omega
  rw [hemb, hj]
  exact Body.stored_eq (V m c main_arg0) (elt m c₀) (grid0.coords t) ⟨(grid0.coords t 0).val, lb⟩ ⟨(grid0.coords t 1).val, li⟩ rfl rfl
    (tbl m) (iblk m c 0 t) (iblk m c 1 t) (iblk m c 2 t)
    (fun r R w k hR => iblk0_apply m c t r w k _ R rfl hR)
    (fun h0 R w k hR => iblk1_apply m c t w k _ R rfl h0 hR)
    (fun h3 R w k hR => iblk2_apply m c t w k _ R rfl h3 hR)
    (fun di dj k hk => tbl_word m di dj k hk)
    (j 1) _ rfl (j 2) (j 3)

/-! ## The result array -/

/-- An index of the result is in point `t`'s block iff each coordinate is in the block's range on its axis. -/
theorem mem_blk (t : Fin (cfgA m).N) (i : S16x512x512x8.Idx) :
    i ∈ (((cfgA m).win 3).blk t).view.set ↔ ∀ a : Fin 4, ((cfgA m).win 3).index t a * S1x128x512x8.size a ≤ (i a).val
      ∧ (i a).val < ((cfgA m).win 3).index t a * S1x128x512x8.size a + S1x128x512x8.size a := by
  have h : (((cfgA m).win 3).blk t).view.set = (((cfgA m).win 3).rect t : Rect main_v2.ty.shape).set :=
    View.set_slice_whole main_v2 _
  rw [h]
  exact Rect.mem_set_unit

/-- The 64 blocks tile the result. -/
theorem blocks_cover (i : S16x512x512x8.Idx) : ∃ t : Fin (cfgA m).N, ((cfgA m).win 3).flush t = true ∧ i ∈ (((cfgA m).win 3).blk t).view.set := by
  have hi0 := (i 0).isLt; have hi1 := (i 1).isLt; have hi2 := (i 2).isLt; have hi3 := (i 3).isLt
  obtain ⟨t, h0, h1⟩ := idx_onto ⟨(i 0).val, hi0⟩ ⟨(i 1).val / 128, by
    have : (i 1).val < 512 := hi1
    omega⟩
  obtain ⟨-, -, -, -, e0, e1, e2, e3, -⟩ := idx_facts t
  refine ⟨t, flush3 m t, ?_⟩
  rw [mem_blk]
  have h0' : (grid0.coords t 0).val = (i 0).val := h0
  have h1' : (grid0.coords t 1).val = (i 1).val / 128 := h1
  have hi1' : (i 1).val < 512 := hi1
  have hi2' : (i 2).val < 512 := hi2
  have hi3' : (i 3).val < 8 := hi3
  intro a
  match a with
  | ⟨0, _⟩ => show ((cfgA m).win 3).index t (0 : Fin 4) * 1 ≤ (i 0).val ∧ (i 0).val < ((cfgA m).win 3).index t (0 : Fin 4) * 1 + 1; rw [hidx3]; omega
  | ⟨1, _⟩ => show ((cfgA m).win 3).index t (1 : Fin 4) * 128 ≤ (i 1).val ∧ (i 1).val < ((cfgA m).win 3).index t (1 : Fin 4) * 128 + 128; rw [hidx3]; omega
  | ⟨2, _⟩ => show ((cfgA m).win 3).index t (2 : Fin 4) * 512 ≤ (i 2).val ∧ (i 2).val < ((cfgA m).win 3).index t (2 : Fin 4) * 512 + 512; rw [hidx3]; omega
  | ⟨3, _⟩ => show ((cfgA m).win 3).index t (3 : Fin 4) * 8 ≤ (i 3).val ∧ (i 3).val < ((cfgA m).win 3).index t (3 : Fin 4) * 8 + 8; rw [hidx3]; omega

/-- The result array after the run is the suppressed image. -/
theorem final (c : Dev nD) : (dats m 0 c).arrAt 3 (cfgA m).N = Nms.G (V m c main_arg0) (elt m c₀) :=
  (dats m 0 c).arrAt_eq_of_cover 3 (Nms.G (V m c main_arg0) (elt m c₀)) (fun t _ => flushed_eq m c t) (blocks_cover m)

/-- The run of the idealized kernel, read: the result is the suppressed image of the launched image and element, and
    both arguments end as launched. -/
theorem run : θ_run (defs (F := Ideal)) (onTc (τ := τ) (main (F := Ideal))) ⟨m, fun _ => 0, ρ⟩ (fun r => ∀ c : Dev nD,
      r.2.mem ((c.tc : Thread nD τ).loc main_v2) = Nms.G (img m c) (elt m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    obtain rfl : c = c₀ := Subsingleton.elim _ _
    refine ⟨?_, ?_, ?_⟩
    · refine ((h c₀).1 3).trans ?_
      rw [final, V_main_arg0]
    · exact ((h c₀).1 0).trans (((dats m 0 c₀).arrAt_in 0 rfl _).trans ((A_eq m c₀ 0).trans (V_main_arg0 m c₀)))
    · exact ((h c₀).2 main_arg1 (Finset.mem_sdiff.mpr ⟨Pipeline.mem_restRefs_of main_arg1 (by decide) (by decide), by decide⟩)).trans (V_main_arg1 m c₀))
    (run_main m ρ)

end Cert.KernelIdeal.Frame

end
-- ==== Proof.LibPadRead.lean ====
/-
  A `stablehlo.pad` with no interior padding, read at an index. Such a pad lays its operand into the result at the low
  padding's offsets and fills the rest with the padding value: an index whose every coordinate is the low padding plus a
  coordinate of the operand reads the operand there (`pad_inside`); an index with some coordinate below the low padding,
  or at or past the low padding plus the operand's extent, reads the padding value (`pad_outside`). Any rank; the
  interior padding is given as a function with a proof that it is zero on every axis, so a literal `![0, …, 0]` fits.
-/
import Idealize.ShloMosaic.Lib.Pipeline.Value

noncomputable section

open Idealize.ShloMosaic

namespace PadRead

variable {α : Type} {s t u : Shape}

/-- Inside the operand's image: the operand at the index less the low padding. -/
theorem pad_inside (lo hi interior : Fin s.rank → Nat) (h0 : ∀ a, interior a = 0) (x : s.Idx → α) (v : u.Idx → α)
    (h : s.Pads lo hi interior t) (hu : 0 < u.numel) (j : t.Idx) (k : s.Idx)
    (hk : ∀ a : Fin s.rank, (j (a.cast h.1)).val = lo a + (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := fun a => by
    have := hk a; have hlt := (k a).isLt
    rw [h0 a, Nat.zero_add, Nat.div_one, Nat.mod_one]
    omega
  rw [dif_pos hin]
  refine congrArg x (funext fun a => Fin.ext ?_)
  show ((j (a.cast h.1)).val - lo a) / (interior a + 1) = (k a).val
  have := hk a
  rw [h0 a, Nat.zero_add, Nat.div_one]; omega

/-- Outside it (on some axis the coordinate is below the low padding, or at or past the low padding plus the operand's
    extent): the padding value. -/
theorem pad_outside (lo hi interior : Fin s.rank → Nat) (h0 : ∀ a, interior a = 0) (x : s.Idx → α) (v : u.Idx → α)
    (h : s.Pads lo hi interior t) (hu : 0 < u.numel) (j : t.Idx) (a : Fin s.rank)
    (ha : (j (a.cast h.1)).val < lo a ∨ lo a + s.size a ≤ (j (a.cast h.1)).val) :
    pad t lo hi interior x v h hu j = v (Shape.Idx.first hu) := by
  unfold pad
  rw [dif_neg]
  intro hin
  have := hin a
  rw [h0 a, Nat.zero_add, Nat.div_one] at this
  omega

end PadRead

end
-- ==== Proof.RefIsG.lean ====
/-
  The reference program computes the suppressed image `Nms.G`.

  The program pads every 512 × 512 plane of the image with a ring of −∞ one pixel wide, takes for each of the nine
  offsets (di, dj) of the 3 × 3 structuring element the 512 × 512 window of the padded plane that starts at (di, dj),
  replaces the whole window by −∞ when the element is not set at (di, dj), folds the nine windows by a pointwise
  maximum starting from −∞, compares the image with that maximum, and multiplies the image by the comparison's bit
  read as a number. Read at one pixel these are, in turn, the ringed plane, the nine taps, the neighbourhood maximum
  and the choice between the pixel and 0: the definitions of `Nms.G`.
-/
import proofs.«137438_j9577777070544_1_alg».proof.Proof.Gen.ReferenceIdeal.Read
import proofs.«137438_j9577777070544_1_alg».proof.Proof.Spec
import proofs.«137438_j9577777070544_1_alg».proof.Proof.LibPadRead

noncomputable section

namespace Cert.ReferenceIdeal.RefValue

open Cert.ReferenceIdeal Cert.ReferenceIdeal.Gen Cert.ReferenceIdeal.Read Idealize.ShloMosaic Idealize.ShloMosaic.ValueIdx

/-- The image and the structuring element, as the reference program types them. -/
abbrev Img : Type := (⟨S16x512x512x8, .f32⟩ : BufTy).Contents (Elt Ideal)
abbrev Msk : Type := (⟨S3x3, .i1⟩ : BufTy).Contents (Elt Ideal)

/-- The pattern 0xFF800000 is −∞. -/
theorem negInf : Ideal.ofBits .f32 0xFF800000#32 = (⊥ : EReal) := by simp [Ideal.ofBits, Ideal.ieee]

/-! ## The padded image is the ringed plane -/

/-- The padded image at (b, H, W, c) is the ringed plane: inside the ring the pad reads the image one pixel up and
    left, on the ring (H or W is 0 or 513) it reads the padding value −∞. -/
theorem padded_apply (x : Img) (b : Fin 16) (H W : Fin 514) (c : Fin 8) :
    val_main_v0 (F := Ideal) x (ix4 b H W c) = Nms.ringed x b H.val W.val c := by
  unfold val_main_v0 Nms.ringed
  by_cases h : (1 ≤ H.val ∧ H.val ≤ 512) ∧ (1 ≤ W.val ∧ W.val ≤ 512)
  · rw [dif_pos h]
    exact PadRead.pad_inside _ _ _ (fun a => by match a with | ⟨0, _⟩ => rfl | ⟨1, _⟩ => rfl | ⟨2, _⟩ => rfl | ⟨3, _⟩ => rfl)
      x _ _ _ (ix4 b H W c) (ix4 b ⟨H.val - 1, by omega⟩ ⟨W.val - 1, by omega⟩ c) (fun a => by
        match a with
        | ⟨0, _⟩ => show b.val = 0 + b.val; omega
        | ⟨1, _⟩ => show H.val = 1 + (H.val - 1); omega
        | ⟨2, _⟩ => show W.val = 1 + (W.val - 1); omega
        | ⟨3, _⟩ => show c.val = 0 + c.val; omega)
  · rw [dif_neg h]
    have hv : ∀ k : S_.Idx, val_main_call0_v0 (F := Ideal) k = (⊥ : EReal) := fun k => negInf
    by_cases hH : 1 ≤ H.val ∧ H.val ≤ 512
    · have hW : ¬(1 ≤ W.val ∧ W.val ≤ 512) := fun hW => h ⟨hH, hW⟩
      rw [PadRead.pad_outside _ _ _ (fun a => by match a with | ⟨0, _⟩ => rfl | ⟨1, _⟩ => rfl | ⟨2, _⟩ => rfl | ⟨3, _⟩ => rfl)
        x _ _ _ (ix4 b H W c) ⟨2, by decide⟩ (by show W.val < 1 ∨ 1 + 512 ≤ W.val; omega)]
      exact hv _
    · rw [PadRead.pad_outside _ _ _ (fun a => by match a with | ⟨0, _⟩ => rfl | ⟨1, _⟩ => rfl | ⟨2, _⟩ => rfl | ⟨3, _⟩ => rfl)
        x _ _ _ (ix4 b H W c) ⟨1, by decide⟩ (by show H.val < 1 ∨ 1 + 512 ≤ H.val; omega)]
      exact hv _

/-! ## One tap

Every one of the nine taps is the same three operations: a 1 × 1 slice of the structuring element reshaped to rank 0,
a 512 × 512 window of the padded image, and a select between that window and −∞ on the rank-0 bit broadcast over the
image. The three lemmas below read them at an index for any offset (di, dj); each tap instantiates them. -/

/-- A 1 × 1 slice of the structuring element that reads it at (di, dj), reshaped to rank 0, is the element's bit at
    (di, dj): both shapes have one index. -/
theorem bit_read (mask : Msk) (di dj : Fin 3) (v : (⟨S1x1, .i1⟩ : BufTy).Contents (Elt Ideal))
    (f : S1x1.Idx → S3x3.Idx) (hv : ∀ k, v k = mask (f k))
    (h0 : ∀ k, (f k 0).val = di.val + (k 0).val) (h1 : ∀ k, (f k 1).val = dj.val + (k 1).val) (j : S_.Idx) :
    shapeCast S_ v shapeCasts_S1x1_S_ j = mask (ix2 di dj) := by
  rw [shapeCast_apply v shapeCasts_S1x1_S_ j (ix2 (0 : Fin 1) (0 : Fin 1)) (by
    rw [Shape.rowMajor_val_two]
    exact (Shape.rowMajorPi_zero _ _).symm), hv]
  refine congrArg mask (funext fun a => Fin.ext ?_)
  match a with
  | ⟨0, _⟩ => exact (h0 _).trans (Nat.add_zero _)
  | ⟨1, _⟩ => exact (h1 _).trans (Nat.add_zero _)

/-- A window of the padded image that starts at (di, dj), read at a pixel, is the ringed plane at the pixel moved by
    (di, dj). -/
theorem window_read (x : Img) (di dj : Fin 3) (f : S16x512x512x8.Idx → S16x514x514x8.Idx)
    (h0 : ∀ i, (f i 0).val = (i 0).val) (h1 : ∀ i, (f i 1).val = di.val + (i 1).val)
    (h2 : ∀ i, (f i 2).val = dj.val + (i 2).val) (h3 : ∀ i, (f i 3).val = (i 3).val) (i : S16x512x512x8.Idx) :
    val_main_v0 (F := Ideal) x (f i) = Nms.ringed x (i 0) ((i 1).val + di.val) ((i 2).val + dj.val) (i 3) := by
  have hH : di.val + (i 1).val < 514 := by
    have a1 : (i 1).val < 512 := (i 1).isLt
    have a2 := di.isLt
    omega
  have hW : dj.val + (i 2).val < 514 := by
    have a1 : (i 2).val < 512 := (i 2).isLt
    have a2 := dj.isLt
    omega
  have e : f i = ix4 (⟨(i 0).val, (i 0).isLt⟩ : Fin 16) (⟨di.val + (i 1).val, hH⟩ : Fin 514)
      (⟨dj.val + (i 2).val, hW⟩ : Fin 514) (⟨(i 3).val, (i 3).isLt⟩ : Fin 8) :=
    funext fun a => Fin.ext (by
      match a with
      | ⟨0, _⟩ => exact h0 i
      | ⟨1, _⟩ => exact h1 i
      | ⟨2, _⟩ => exact h2 i
      | ⟨3, _⟩ => exact h3 i)
  rw [e]
  refine (padded_apply x _ _ _ _).trans ?_
  show Nms.ringed x (i 0) (di.val + (i 1).val) (dj.val + (i 2).val) (i 3) = _
  rw [Nat.add_comm di.val, Nat.add_comm dj.val]

/-- The select of a tap: where the element's bit at (di, dj) is set the window, else −∞ — the tap of `Nms.tap`. -/
theorem tap_read (x : Img) (mask : Msk) (di dj : Fin 3) (p : (⟨S_, .i1⟩ : BufTy).Contents (Elt Ideal))
    (w n : Img) (hp : ∀ j, p j = mask (ix2 di dj))
    (hw : ∀ i, w i = Nms.ringed x (i 0) ((i 1).val + di.val) ((i 2).val + dj.val) (i 3))
    (hn : ∀ i, n i = (⊥ : EReal)) (i : S16x512x512x8.Idx) :
    select (broadcastInDim S16x512x512x8 ![] bcast_S_S16x512x512x8 p) w n i
      = Nms.tap x mask (i 0) (i 1).val (i 2).val (i 3) di dj := by
  rw [select_apply, broadcastInDim_apply _ bcast_S_S16x512x512x8 p i ix0 (fun a => a.elim0), hp, hw, hn]
  rfl

/-! ## The nine taps

Tap k = 3 · di + dj takes the element's bit at (di, dj) and the window that starts at (di, dj). -/

/-- Tap (0, 0). -/
theorem tap0 (x : Img) (mask : Msk) (i : S16x512x512x8.Idx) :
    val_main_v5 (F := Ideal) x mask i = Nms.tap x mask (i 0) (i 1).val (i 2).val (i 3) 0 0 :=
  tap_read x mask 0 0 (val_main_v4 (F := Ideal) mask) (val_main_v2 (F := Ideal) x) (val_main_call1_v0 (F := Ideal))
    (fun j => bit_read mask 0 0 (val_main_v3 (F := Ideal) mask) idx_main_v3 (val_main_v3_apply mask)
      (fun _ => (Nat.zero_add _).symm) (fun _ => (Nat.zero_add _).symm) j)
    (fun i => (val_main_v2_apply x i).trans
      (window_read x 0 0 idx_main_v2 (fun _ => rfl) (fun _ => (Nat.zero_add _).symm) (fun _ => (Nat.zero_add _).symm) (fun _ => rfl) i))
    (fun i => (val_main_call1_v0_apply i).trans negInf) i

/-- Tap (0, 1). -/
theorem tap1 (x : Img) (mask : Msk) (i : S16x512x512x8.Idx) :
    val_main_v10 (F := Ideal) x mask i = Nms.tap x mask (i 0) (i 1).val (i 2).val (i 3) 0 1 :=
  tap_read x mask 0 1 (val_main_v9 (F := Ideal) mask) (val_main_v7 (F := Ideal) x) (val_main_call2_v0 (F := Ideal))
    (fun j => bit_read mask 0 1 (val_main_v8 (F := Ideal) mask) idx_main_v8 (val_main_v8_apply mask)
      (fun _ => (Nat.zero_add _).symm) (fun _ => rfl) j)
    (fun i => (val_main_v7_apply x i).trans
      (window_read x 0 1 idx_main_v7 (fun _ => rfl) (fun _ => (Nat.zero_add _).symm) (fun _ => rfl) (fun _ => rfl) i))
    (fun i => (val_main_call2_v0_apply i).trans negInf) i

/-- Tap (0, 2). -/
theorem tap2 (x : Img) (mask : Msk) (i : S16x512x512x8.Idx) :
    val_main_v15 (F := Ideal) x mask i = Nms.tap x mask (i 0) (i 1).val (i 2).val (i 3) 0 2 :=
  tap_read x mask 0 2 (val_main_v14 (F := Ideal) mask) (val_main_v12 (F := Ideal) x) (val_main_call3_v0 (F := Ideal))
    (fun j => bit_read mask 0 2 (val_main_v13 (F := Ideal) mask) idx_main_v13 (val_main_v13_apply mask)
      (fun _ => (Nat.zero_add _).symm) (fun _ => rfl) j)
    (fun i => (val_main_v12_apply x i).trans
      (window_read x 0 2 idx_main_v12 (fun _ => rfl) (fun _ => (Nat.zero_add _).symm) (fun _ => rfl) (fun _ => rfl) i))
    (fun i => (val_main_call3_v0_apply i).trans negInf) i

/-- Tap (1, 0). -/
theorem tap3 (x : Img) (mask : Msk) (i : S16x512x512x8.Idx) :
    val_main_v20 (F := Ideal) x mask i = Nms.tap x mask (i 0) (i 1).val (i 2).val (i 3) 1 0 :=
  tap_read x mask 1 0 (val_main_v19 (F := Ideal) mask) (val_main_v17 (F := Ideal) x) (val_main_call4_v0 (F := Ideal))
    (fun j => bit_read mask 1 0 (val_main_v18 (F := Ideal) mask) idx_main_v18 (val_main_v18_apply mask)
      (fun _ => rfl) (fun _ => (Nat.zero_add _).symm) j)
    (fun i => (val_main_v17_apply x i).trans
      (window_read x 1 0 idx_main_v17 (fun _ => rfl) (fun _ => rfl) (fun _ => (Nat.zero_add _).symm) (fun _ => rfl) i))
    (fun i => (val_main_call4_v0_apply i).trans negInf) i

/-- Tap (1, 1). -/
theorem tap4 (x : Img) (mask : Msk) (i : S16x512x512x8.Idx) :
    val_main_v25 (F := Ideal) x mask i = Nms.tap x mask (i 0) (i 1).val (i 2).val (i 3) 1 1 :=
  tap_read x mask 1 1 (val_main_v24 (F := Ideal) mask) (val_main_v22 (F := Ideal) x) (val_main_call5_v0 (F := Ideal))
    (fun j => bit_read mask 1 1 (val_main_v23 (F := Ideal) mask) idx_main_v23 (val_main_v23_apply mask)
      (fun _ => rfl) (fun _ => rfl) j)
    (fun i => (val_main_v22_apply x i).trans
      (window_read x 1 1 idx_main_v22 (fun _ => rfl) (fun _ => rfl) (fun _ => rfl) (fun _ => rfl) i))
    (fun i => (val_main_call5_v0_apply i).trans negInf) i

/-- Tap (1, 2). -/
theorem tap5 (x : Img) (mask : Msk) (i : S16x512x512x8.Idx) :
    val_main_v30 (F := Ideal) x mask i = Nms.tap x mask (i 0) (i 1).val (i 2).val (i 3) 1 2 :=
  tap_read x mask 1 2 (val_main_v29 (F := Ideal) mask) (val_main_v27 (F := Ideal) x) (val_main_call6_v0 (F := Ideal))
    (fun j => bit_read mask 1 2 (val_main_v28 (F := Ideal) mask) idx_main_v28 (val_main_v28_apply mask)
      (fun _ => rfl) (fun _ => rfl) j)
    (fun i => (val_main_v27_apply x i).trans
      (window_read x 1 2 idx_main_v27 (fun _ => rfl) (fun _ => rfl) (fun _ => rfl) (fun _ => rfl) i))
    (fun i => (val_main_call6_v0_apply i).trans negInf) i

/-- Tap (2, 0). -/
theorem tap6 (x : Img) (mask : Msk) (i : S16x512x512x8.Idx) :
    val_main_v35 (F := Ideal) x mask i = Nms.tap x mask (i 0) (i 1).val (i 2).val (i 3) 2 0 :=
  tap_read x mask 2 0 (val_main_v34 (F := Ideal) mask) (val_main_v32 (F := Ideal) x) (val_main_call7_v0 (F := Ideal))
    (fun j => bit_read mask 2 0 (val_main_v33 (F := Ideal) mask) idx_main_v33 (val_main_v33_apply mask)
      (fun _ => rfl) (fun _ => (Nat.zero_add _).symm) j)
    (fun i => (val_main_v32_apply x i).trans
      (window_read x 2 0 idx_main_v32 (fun _ => rfl) (fun _ => rfl) (fun _ => (Nat.zero_add _).symm) (fun _ => rfl) i))
    (fun i => (val_main_call7_v0_apply i).trans negInf) i

/-- Tap (2, 1). -/
theorem tap7 (x : Img) (mask : Msk) (i : S16x512x512x8.Idx) :
    val_main_v40 (F := Ideal) x mask i = Nms.tap x mask (i 0) (i 1).val (i 2).val (i 3) 2 1 :=
  tap_read x mask 2 1 (val_main_v39 (F := Ideal) mask) (val_main_v37 (F := Ideal) x) (val_main_call8_v0 (F := Ideal))
    (fun j => bit_read mask 2 1 (val_main_v38 (F := Ideal) mask) idx_main_v38 (val_main_v38_apply mask)
      (fun _ => rfl) (fun _ => rfl) j)
    (fun i => (val_main_v37_apply x i).trans
      (window_read x 2 1 idx_main_v37 (fun _ => rfl) (fun _ => rfl) (fun _ => rfl) (fun _ => rfl) i))
    (fun i => (val_main_call8_v0_apply i).trans negInf) i

/-- Tap (2, 2). -/
theorem tap8 (x : Img) (mask : Msk) (i : S16x512x512x8.Idx) :
    val_main_v45 (F := Ideal) x mask i = Nms.tap x mask (i 0) (i 1).val (i 2).val (i 3) 2 2 :=
  tap_read x mask 2 2 (val_main_v44 (F := Ideal) mask) (val_main_v42 (F := Ideal) x) (val_main_call9_v0 (F := Ideal))
    (fun j => bit_read mask 2 2 (val_main_v43 (F := Ideal) mask) idx_main_v43 (val_main_v43_apply mask)
      (fun _ => rfl) (fun _ => rfl) j)
    (fun i => (val_main_v42_apply x i).trans
      (window_read x 2 2 idx_main_v42 (fun _ => rfl) (fun _ => rfl) (fun _ => rfl) (fun _ => rfl) i))
    (fun i => (val_main_call9_v0_apply i).trans negInf) i

/-! ## The neighbourhood maximum, and the suppressed image -/

/-- The fold of the nine windows by the pointwise maximum, from −∞, is the neighbourhood maximum. -/
theorem nbr_read (x : Img) (mask : Msk) (i : S16x512x512x8.Idx) :
    val_main_v46 (F := Ideal) x mask i = Nms.nbrMax x mask (i 0) (i 1).val (i 2).val (i 3) := by
  rw [val_main_v46_apply, val_main_v41_apply, val_main_v36_apply, val_main_v31_apply, val_main_v26_apply,
    val_main_v21_apply, val_main_v16_apply, val_main_v11_apply, val_main_v6_apply, val_main_v1_apply,
    val_main_cst_0_apply, tap0, tap1, tap2, tap3, tap4, tap5, tap6, tap7, tap8]
  simp only [Ideal.maximumf_def, Ideal.ofBits_def, negInf]
  rfl

/-- The comparison's bit read as a number, times the pixel: 1 · a = a where the pixel is strictly above the
    neighbourhood maximum, 0 · a = 0 elsewhere — for every extended real a. -/
theorem keep_or_zero (a N : EReal) :
    (((Ideal.cmp .ogt a N).toNat : ℝ) : EReal) * a = if N < a then a else 0 := by
  unfold Ideal.cmp
  by_cases h : N < a
  · rw [if_pos h]; simp [h]
  · rw [if_neg h]; simp [h]

/-- THE REFERENCE COMPUTES `Nms.G`. -/
theorem ref_eq (x : (⟨Cert.ReferenceIdeal.S16x512x512x8, .f32⟩ : BufTy).Contents (Elt Ideal))
    (mask : (⟨Cert.ReferenceIdeal.S3x3, .i1⟩ : BufTy).Contents (Elt Ideal)) :
    Cert.ReferenceIdeal.Read.val_main_v49 (F := Ideal) x mask = Nms.G x mask := by
  funext i
  rw [val_main_v49_apply, val_main_v48_apply, val_main_v47_apply, nbr_read]
  exact keep_or_zero (x i) _

end Cert.ReferenceIdeal.RefValue

end
-- ==== Proof.lean ====
/-
  Non-maximum suppression by a 3×3 structuring element: a kernel tiled over rows against the whole-image reference.

  Both programs compute, at every pixel of every plane and channel of the image x, the maximum of the pixel's neighbours
  selected by the structuring element — a neighbour outside the image, or one the element leaves out, counting as −∞, the nine
  taps folded from −∞ in row-major order — and keep the pixel when it is strictly greater than that maximum, writing 0
  otherwise (`Nms.G`, Proof/Spec.lean).

  The reference pads the whole image with a ring of −∞, takes the nine shifted slices, selects each against −∞ by the element's
  bit, folds the maxima, compares, converts the comparison's bit to 0 or 1 and multiplies by x. On the extended reals
  1 · x = x and 0 · x = 0 for every x, so the product is the kept-or-zero choice (Proof/RefIsG.lean).

  The kernel works on 128 rows of one plane at a time. It reads the structuring element from a table of nine words, and the
  rows above and below its 128 through two one-row windows of the same image whose row numbers are clamped into the image; at
  the first and last tile of a plane it replaces that row by −∞, which is what the reference's ring holds there. Inside a
  tile it pads the columns with −∞ and takes the same nine taps in the same order, then keeps the pixel or writes 0 by a
  select. So each tile's output block is the corresponding block of `Nms.G` (Proof/StoredIsG.lean), the 64 blocks tile the
  result (Proof/KernelValue.lean), and the two programs' results are one function of the arguments. No finiteness is needed
  for that: the precondition is never opened.

  The three frames: the reference is a straight line of host operations, so its run is its frame; the kernel's — at the
  word-level reading and at the idealized one, by the same text — is the run of the pipeline with the image's buffer dealt
  among the three windows that read it and the table held half by the pipeline and half by the body (Proof/Entry.lean,
  Run.lean, Data.lean, Shares.lean, Frame.lean). The idealization rewrote nothing, so it is preserved trivially.
-/
import proofs.«137438_j9577777070544_1_alg».proof.Defs
import proofs.«137438_j9577777070544_1_alg».proof.Proof.Gen.Kernel
import proofs.«137438_j9577777070544_1_alg».proof.Proof.Gen.Kernel.Skeleton
import proofs.«137438_j9577777070544_1_alg».proof.Proof.Gen.Kernel.Launch
import proofs.«137438_j9577777070544_1_alg».proof.Proof.Gen.Kernel.Flash
import proofs.«137438_j9577777070544_1_alg».proof.Proof.Gen.KernelIdeal
import proofs.«137438_j9577777070544_1_alg».proof.Proof.Gen.KernelIdeal.Skeleton
import proofs.«137438_j9577777070544_1_alg».proof.Proof.Gen.KernelIdeal.Launch
import proofs.«137438_j9577777070544_1_alg».proof.Proof.Gen.KernelIdeal.Flash
import proofs.«137438_j9577777070544_1_alg».proof.Proof.Gen.ReferenceIdeal
import proofs.«137438_j9577777070544_1_alg».proof.Proof.Gen.Pre_finite_inputs
import proofs.«137438_j9577777070544_1_alg».proof.Proof.Gen.ReferenceIdeal.Run
import proofs.«137438_j9577777070544_1_alg».proof.Proof.Gen.ReferenceIdeal.Read
import proofs.«137438_j9577777070544_1_alg».proof.Proof.BitsFrame
import proofs.«137438_j9577777070544_1_alg».proof.Proof.KernelValue
import proofs.«137438_j9577777070544_1_alg».proof.Proof.RefIsG
import Idealize.ShloMosaic.Adequacy
import Idealize.ShloMosaic.Init

noncomputable section

namespace Cert.Proof

open Idealize.ShloMosaic Idealize.ShloMosaic.TcCoe Idealize.SL.Sem

/-- The program as printed runs to the end, faults nowhere, and leaves its arguments as they were. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result and the reference's are the suppressed image of the same arguments. -/
theorem algebraic : Cert.algebraic_KernelIdeal_ReferenceIdeal := by
  intro m ρ m' ρ' _ hagree
  refine ⟨fun c => Nms.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Frame.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
